-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1024 : Shape := ⟨2, ![4096, 1024]⟩
abbrev S4096 : Shape := ⟨1, ![4096]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S4096x1024 .f32) (main_arg5 : FVec F S4096 .f32) (main_arg6 : FVec F S4096 .f32) (main_arg7 : FVec F S1024 .f32) (main_arg8 : FVec F S1024 .f32) (main_v13 : IVec S_ 1) (main_v16 : IVec S4096x512 1) : IVec S_ 1 :=
  let main_c_5 : IVec S_ 1 := constantI S_ 1 1#1
  let main_v17 : IVec S_ 1 := (fun x v => Host.reduce IntOp.andi x v reducesTo_S4096x512_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_v33

def fn {F : FTy → Type} [FloatOps F] (main_arg0 : FVec F S4096x512 .f32) (main_arg1 : FVec F S4096x1024 .f32) (main_arg2 : FVec F S4096x1024 .f32) (main_arg3 : FVec F S4096x512 .f32) (main_arg4 : FVec F S4096x1024 .f32) (main_arg5 : FVec F S4096 .f32) (main_arg6 : FVec F S4096 .f32) (main_arg7 : FVec F S1024 .f32) (main_arg8 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x512 .f32 := Host.absf main_arg3
  let main_cst_4 : FVec F S_ .f32 := constant S_ .f32 0x7F800000#32
  let main_v15 : FVec F S4096x512 .f32 := broadcastInDim S4096x512 ![] bcast_S_S4096x512 main_cst_4
  let main_v16 : IVec S4096x512 1 := cmpf .olt main_v14 main_v15
  fn_part1 (F := F) main_arg4 main_arg5 main_arg6 main_arg7 main_arg8 main_v13 main_v16
-- ==== Kernel.lean ====
abbrev S4096x512 : Shape := ⟨2, ![4096, 512]⟩
abbrev S4096x1024 : Shape := ⟨2, ![4096, 1024]⟩
abbrev S4096 : Shape := ⟨1, ![4096]⟩
abbrev S1024 : Shape := ⟨1, ![1024]⟩
abbrev S1x4096 : Shape := ⟨2, ![1, 4096]⟩
abbrev S1x1024 : Shape := ⟨2, ![1, 1024]⟩
abbrev S256x512 : Shape := ⟨2, ![256, 512]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 17
  | .vmem => 16
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S4096x512, .bf16⟩
  | .hbm, ⟨10, _⟩ => ⟨S4096x1024, .bf16⟩
  | .hbm, ⟨11, _⟩ => ⟨S1x4096, .f32⟩
  | .hbm, ⟨12, _⟩ => ⟨S1x4096, .f32⟩
  | .hbm, ⟨13, _⟩ => ⟨S1x1024, .f32⟩
  | .hbm, ⟨14, _⟩ => ⟨S1x1024, .f32⟩
  | .hbm, ⟨15, _⟩ => ⟨S4096x1024, .f32⟩
  | .hbm, ⟨16, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x512, .bf16⟩
  | .local _ .vmem, ⟨7, _⟩ => ⟨S4096x1024, .bf16⟩
  | .local _ .vmem, ⟨8, _⟩ => ⟨S1x4096, .f32⟩
  | .local _ .vmem, ⟨9, _⟩ => ⟨S1x4096, .f32⟩
  | .local _ .vmem, ⟨10, _⟩ => ⟨S1x1024, .f32⟩
  | .local _ .vmem, ⟨11, _⟩ => ⟨S1x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  reduces_S256x1024_S256 : S256x1024.Reduces [1] S256
  shapeCasts_S256_S256x1 : S256.ShapeCasts S256x1
  broadcasts_S256x1_S256x1024 : S256x1.Broadcasts S256x1024
  slices_S1x4096_o0_0_S1x1024 : S1x4096.Slices ![0, 0] S1x1024
  broadcasts_S1x1024_S256x1024 : S1x1024.Broadcasts S256x1024
  slices_S1x4096_o0_1024_S1x1024 : S1x4096.Slices ![0, 1024] S1x1024
  slices_S1x4096_o0_2048_S1x1024 : S1x4096.Slices ![0, 2048] S1x1024
  slices_S1x4096_o0_3072_S1x1024 : S1x4096.Slices ![0, 3072] S1x1024
  dot_S256x512_S4096x512_S256x4096_1_1_0_0_n_n_wf : DotDims.WF S256x512 S4096x512 S256x4096 [1] [1] [0] [0] [] []
  dot_S256x1024_S4096x1024_S256x4096_1_1_0_0_n_n_wf : DotDims.WF S256x1024 S4096x1024 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x512.size a ≤ S4096x512.size a
  hwx0_3 : ∀ i : grid0.Coords, EltTy.bits .bf16 = 32 ∨ (Rect.block (s := S4096x512) S4096x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x4096.size a ≤ S1x4096.size a
  hwx0_5 : ∀ i : grid0.Coords, EltTy.bits .f32 = 32 ∨ (Rect.block (s := S1x4096) S1x4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1024.size a ≤ S1x1024.size a
  hwx0_7 : ∀ i : grid0.Coords, EltTy.bits .f32 = 32 ∨ (Rect.block (s := S1x1024) S1x1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S4096x1024.size a
  hwx0_9 : ∀ i : grid0.Coords, EltTy.bits .f32 = 32 ∨ (Rect.block (s := S4096x1024) S256x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)

variable [Facts₀]

def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf
def dot_S256x1024_S4096x1024_S256x4096_1_1_0_0_n_n : DotDims S256x1024 S4096x1024 S256x4096 where
  lhsContracting := [1]
  rhsContracting := [1]
  lhsNonContracting := [0]
  rhsNonContracting := [0]
  lhsBatch := []
  rhsBatch := []
  wf := dot_S256x1024_S4096x1024_S256x4096_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6_0) S256x1024.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v6_1) S256x1024.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1024 : Shape := ⟨2, ![4096, 1024]⟩
abbrev S4096 : Shape := ⟨1, ![4096]⟩
abbrev S1024 : Shape := ⟨1, ![1024]⟩
abbrev S512x4096 : Shape := ⟨2, ![512, 4096]⟩
abbrev S4096x4096 : Shape := ⟨2, ![4096, 4096]⟩
abbrev S1024x4096 : Shape := ⟨2, ![1024, 4096]⟩
abbrev S4096x4x1024 : Shape := ⟨3, ![4096, 4, 1024]⟩
abbrev S_ : Shape := ⟨0, ![]⟩
abbrev S4096x4 : Shape := ⟨2, ![4096, 4]⟩
abbrev S4096x4x1 : Shape := ⟨3, ![4096, 4, 1]⟩
abbrev S1x4096 : Shape := ⟨2, ![1, 4096]⟩
abbrev S4096x1 : Shape := ⟨2, ![4096, 1]⟩
abbrev S1x1024 : Shape := ⟨2, ![1, 1024]⟩

abbrev nBuf : Space → Nat
  | .hbm => 111
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .f32⟩
  | .hbm, ⟨2, _⟩ => ⟨S4096x1024, .f32⟩
  | .hbm, ⟨3, _⟩ => ⟨S4096x512, .f32⟩
  | .hbm, ⟨4, _⟩ => ⟨S4096x1024, .f32⟩
  | .hbm, ⟨5, _⟩ => ⟨S4096, .f32⟩
  | .hbm, ⟨6, _⟩ => ⟨S4096, .f32⟩
  | .hbm, ⟨7, _⟩ => ⟨S1024, .f32⟩
  | .hbm, ⟨8, _⟩ => ⟨S1024, .f32⟩
  | .hbm, ⟨9, _⟩ => ⟨S512x4096, .f32⟩
  | .hbm, ⟨10, _⟩ => ⟨S4096x4096, .f32⟩
  | .hbm, ⟨11, _⟩ => ⟨S1024x4096, .f32⟩
  | .hbm, ⟨12, _⟩ => ⟨S4096x4096, .f32⟩
  | .hbm, ⟨13, _⟩ => ⟨S4096x4096, .f32⟩
  | .hbm, ⟨14, _⟩ => ⟨S4096x4x1024, .f32⟩
  | .hbm, ⟨15, _⟩ => ⟨S_, .f32⟩
  | .hbm, ⟨16, _⟩ => ⟨S4096x4, .f32⟩
  | .hbm, ⟨17, _⟩ => ⟨S4096x4x1, .f32⟩
  | .hbm, ⟨18, _⟩ => ⟨S_, .f32⟩
  | .hbm, ⟨19, _⟩ => ⟨S4096x4x1, .f32⟩
  | .hbm, ⟨20, _⟩ => ⟨S4096x4x1, .f32⟩
  | .hbm, ⟨21, _⟩ => ⟨S4096x4x1024, .f32⟩
  | .hbm, ⟨22, _⟩ => ⟨S4096x4x1024, .f32⟩
  | .hbm, ⟨23, _⟩ => ⟨S4096x4x1024, .f32⟩
  | .hbm, ⟨24, _⟩ => ⟨S_, .f32⟩
  | .hbm, ⟨25, _⟩ => ⟨S4096x4, .f32⟩
  | .hbm, ⟨26, _⟩ => ⟨S4096x4x1, .f32⟩
  | .hbm, ⟨27, _⟩ => ⟨S_, .f32⟩
  | .hbm, ⟨28, _⟩ => ⟨S4096x4x1, .f32⟩
  | .hbm, ⟨29, _⟩ => ⟨S4096x4x1, .f32⟩
  | .hbm, ⟨30, _⟩ => ⟨S4096x4x1024, .f32⟩
  | .hbm, ⟨31, _⟩ => ⟨S4096x4x1024, .f32⟩
  | .hbm, ⟨32, _⟩ => ⟨S_, .f32⟩
  | .hbm, ⟨33, _⟩ => ⟨S4096x4x1, .f32⟩
  | .hbm, ⟨34, _⟩ => ⟨S4096x4x1, .f32⟩
  | .hbm, ⟨35, _⟩ => ⟨S4096x4x1, .f32⟩
  | .hbm, ⟨36, _⟩ => ⟨S4096x4x1024, .f32⟩
  | .hbm, ⟨37, _⟩ => ⟨S4096x4x1024, .f32⟩
  | .hbm, ⟨38, _⟩ => ⟨S4096x4096, .f32⟩
  | .hbm, ⟨39, _⟩ => ⟨S1x4096, .f32⟩
  | .hbm, ⟨40, _⟩ => ⟨S4096x4096, .f32⟩
  | .hbm, ⟨41, _⟩ => ⟨S4096x4096, .f32⟩
  | .hbm, ⟨42, _⟩ => ⟨S1x4096, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S_, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S_, .f32⟩
  | .hbm, ⟨84, _⟩ => ⟨S4096x1, .f32⟩
  | .hbm, ⟨85, _⟩ => ⟨S4096x1, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1, .f32⟩
  | .hbm, ⟨99, _⟩ => ⟨S4096x1, .f32⟩
  | .hbm, ⟨100, _⟩ => ⟨S4096x1, .f32⟩
  | .hbm, ⟨101, _⟩ => ⟨S4096x1024, .f32⟩
  | .hbm, ⟨102, _⟩ => ⟨S4096x1024, .f32⟩
  | .hbm, ⟨103, _⟩ => ⟨S1x1024, .f32⟩
  | .hbm, ⟨104, _⟩ => ⟨S4096x1024, .f32⟩
  | .hbm, ⟨105, _⟩ => ⟨S4096x1024, .f32⟩
  | .hbm, ⟨106, _⟩ => ⟨S1x1024, .f32⟩
  | .hbm, ⟨107, _⟩ => ⟨S4096x1024, .f32⟩
  | .hbm, ⟨108, _⟩ => ⟨S4096x1024, .f32⟩
  | .hbm, ⟨109, _⟩ => ⟨S4096x1024, .f32⟩
  | .hbm, ⟨110, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_cst_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_v67 : Ref sig .tc := ⟨.hbm, 91, rfl⟩
abbrev main_cst_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩

abbrev nD : Nat := 1
abbrev τ : Topo := Topo.v7x

variable {F : FTy → Type} [FloatOps F]

class Facts₀ : Prop where
  transposes_S4096x512_S512x4096_1_0 : S4096x512.Transposes [1, 0] S512x4096
  transposes_S4096x1024_S1024x4096_1_0 : S4096x1024.Transposes [1, 0] S1024x4096
  shapeCasts_S4096x4096_S4096x4x1024 : S4096x4096.ShapeCasts S4096x4x1024
  reducesTo_S4096x4x1024_S4096x4_d2 : S4096x4x1024.ReducesTo [2] S4096x4
  h_S_ : 0 < S_.numel
  bcast_S4096x4_S4096x4x1_0_1 : S4096x4.BroadcastsInDim S4096x4x1 (![0, 1] : Fin 2 → Fin S4096x4x1.rank)
  bcast_S_S4096x4x1 : S_.BroadcastsInDim S4096x4x1 (![] : Fin 0 → Fin S4096x4x1.rank)
  bcast_S4096x4x1_S4096x4x1024_0_1_2 : S4096x4x1.BroadcastsInDim S4096x4x1024 (![0, 1, 2] : Fin 3 → Fin S4096x4x1024.rank)
  shapeCasts_S4096x4x1024_S4096x4096 : S4096x4x1024.ShapeCasts S4096x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  reducesTo_S4096x1024_S4096_d1 : S4096x1024.ReducesTo [1] S4096
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Spec.lean ====
/-
  The layer-normalised LSTM cell on the extended reals, one batch row at a time.

  A batch row carries an input row x (512 numbers), a hidden row h and a cell row c (1024 numbers each). The
  two weight matrices have 4096 rows; row o of the first is dotted with x and row o of the second with h, and
  the two dot products are added: that is the pre-activation at column o. The 4096 columns are four consecutive
  chunks of 1024, one per gate (input, forget, output, candidate). Each chunk is normalised on its own:
  subtract the chunk's mean, multiply by the reciprocal square root of the chunk's variance plus a small constant
  (mean and variance are sums over the 1024 entries divided by 1024), then scale and shift by the entries of two
  vectors of length 4096 at the same columns. The new cell row is
  sigmoid(forget + 1) * c + sigmoid(input) * tanh(candidate), and the new hidden row is sigmoid(output) times
  tanh of the new cell row normalised in the same way and scaled and shifted by two vectors of length 1024.
  The sigmoid is 1 / (1 + exp(-x)).

  Every operation is the exact one on the extended reals; the three float literals (1024, the small constant
  and 1) stay the binary values both programs spell.
-/
import Idealize.ShloMosaic.PureOps.Ideal
import Idealize.ShloMosaic.Lib.ValueIdx

noncomputable section

namespace Cert.LnLstm

open Idealize.ShloMosaic Idealize.ShloMosaic.ValueIdx

/-- The chunk width 1024, the variance offset and 1, as the binary values the programs spell. -/
abbrev cN : EReal := Ideal.ofBits .f32 0x44800000#32
abbrev cEps : EReal := Ideal.ofBits .f32 0x3727C5AC#32
abbrev cOne : EReal := Ideal.ofBits .f32 0x3F800000#32

/-- The mean of 1024 numbers: their sum divided by 1024. -/
def mean (f : Fin 1024 → EReal) : EReal := Ideal.div (∑ k, f k) cN

/-- Their variance: the mean of the squared distances from the mean. -/
def var (f : Fin 1024 → EReal) : EReal := Ideal.div (∑ k, (f k - mean f) * (f k - mean f)) cN

/-- Entry j normalised: its distance from the mean times the reciprocal root of the offset variance. -/
def lnorm (f : Fin 1024 → EReal) (j : Fin 1024) : EReal := (f j - mean f) * Ideal.rsqrt (var f + cEps)

/-- The sigmoid as the quotient 1 / (1 + exp (-x)). -/
def sigm (x : EReal) : EReal := Ideal.div cOne (cOne + Ideal.exp (-x))

/-- Column j of gate chunk g among the 4096 columns. -/
def col (g : Fin 4) (j : Fin 1024) : Fin 4096 := ⟨1024 * g.val + j.val, by have := g.isLt; have := j.isLt; omega⟩

section Row

variable (xr : Fin 512 → EReal) (hr cr : Fin 1024 → EReal) (wih : Fin 4096 → Fin 512 → EReal)
  (whh : Fin 4096 → Fin 1024 → EReal) (gw gb : Fin 4096 → EReal) (cw cb : Fin 1024 → EReal)

/-- The pre-activation at column o: row o of the first weight matrix dotted with x plus row o of the second
    dotted with h. -/
def lin (o : Fin 4096) : EReal := (∑ k, xr k * wih o k) + ∑ k, hr k * whh o k

/-- Gate g at entry j: the chunk normalised, scaled and shifted. -/
def gate (g : Fin 4) (j : Fin 1024) : EReal :=
  lnorm (fun k => lin xr hr wih whh (col g k)) j * gw (col g j) + gb (col g j)

/-- The new cell row. -/
def cNew (j : Fin 1024) : EReal :=
  sigm (gate xr hr wih whh gw gb 1 j + cOne) * cr j
    + sigm (gate xr hr wih whh gw gb 0 j) * Ideal.tanh (gate xr hr wih whh gw gb 3 j)

/-- The new hidden row. -/
def hNew (j : Fin 1024) : EReal :=
  sigm (gate xr hr wih whh gw gb 2 j)
    * Ideal.tanh (lnorm (cNew xr hr cr wih whh gw gb) j * cw j + cb j)

end Row

/-! ## The two results as whole arrays of the nine argument arrays -/

abbrev Mat (n m : Nat) : Type := (⟨2, ![n, m]⟩ : Shape).Idx → EReal
abbrev Vc (n : Nat) : Type := (⟨1, ![n]⟩ : Shape).Idx → EReal

section Arrays

variable (x : Mat 4096 512) (h c : Mat 4096 1024) (wih : Mat 4096 512) (whh : Mat 4096 1024)
  (gw gb : Vc 4096) (cw cb : Vc 1024)

/-- The new cell array at row b, entry j. -/
def cAt (b : Fin 4096) (j : Fin 1024) : EReal :=
  cNew (fun k => x (ix2 b k)) (fun k => h (ix2 b k)) (fun k => c (ix2 b k)) (fun o k => wih (ix2 o k))
    (fun o k => whh (ix2 o k)) (fun o => gw (ix1 o)) (fun o => gb (ix1 o)) j

/-- The new hidden array at row b, entry j. -/
def hAt (b : Fin 4096) (j : Fin 1024) : EReal :=
  hNew (fun k => x (ix2 b k)) (fun k => h (ix2 b k)) (fun k => c (ix2 b k)) (fun o k => wih (ix2 o k))
    (fun o k => whh (ix2 o k)) (fun o => gw (ix1 o)) (fun o => gb (ix1 o)) (fun k => cw (ix1 k)) (fun k => cb (ix1 k)) j

/-- The new cell array. -/
def cOut : Mat 4096 1024 := fun i => cAt x h c wih whh gw gb (i 0) (i 1)

/-- The new hidden array. -/
def hOut : Mat 4096 1024 := fun i => hAt x h c wih whh gw gb cw cb (i 0) (i 1)

theorem cOut_ix2 (b : Fin 4096) (j : Fin 1024) : cOut x h c wih whh gw gb (ix2 b j) = cAt x h c wih whh gw gb b j := rfl
theorem hOut_ix2 (b : Fin 4096) (j : Fin 1024) : hOut x h c wih whh gw gb cw cb (ix2 b j) = hAt x h c wih whh gw gb cw cb b j := rfl

end Arrays

end Cert.LnLstm

end
-- ==== Proof.KerLin.lean ====
/-
  The kernel's pre-activation block, entry by entry.

  At one grid point the body holds a block of 256 batch rows. Its two matrix products contract the input row with
  the rows of the first weight matrix and the hidden row with the rows of the second (both contractions run over
  the second axis of both operands, into a zero accumulator), so entry (p, o) of their sum is the pre-activation
  of row p at column o. A change of float format is the identity on the extended reals. The four gate chunks are
  the four column ranges of width 1024.
-/
import proofs.«170549_j14980845928861_2_alg».proof.Proof.Gen.KernelIdeal.Skeleton
import proofs.«170549_j14980845928861_2_alg».proof.Proof.Spec
import Idealize.ShloMosaic.Lib.ValueLayout
import Idealize.ShloMosaic.Lib.ValueIdx
import Idealize.ShloMosaic.PureOps.Ideal.Laws
import Idealize.ShloMosaic.Lib.Pipeline.Value

noncomputable section

namespace Cert.LnLstm.Ker

open Cert.KernelIdeal Cert.KernelIdeal.Gen Idealize.ShloMosaic Idealize.ShloMosaic.ValueIdx

/-- The input rows against the rows of the first weight matrix: entry (p, o) is the sum over k of l[p,k] r[o,k]. -/
theorem matmul_x (l : FVec Ideal S256x512 .bf16) (r : FVec Ideal S4096x512 .bf16) (p : Fin 256) (o : Fin 4096) :
    matmul dot_S256x512_S4096x512_S256x4096_1_1_0_0_n_n none l r (constant S256x4096 .f32 0x00000000#32) (ix2 p o)
      = ∑ k : Fin 512, l (ix2 p k) * r (ix2 o k) := by
  simp only [matmul]
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p o) ((contrEquiv1 dot_S256x512_S4096x512_S256x4096_1_1_0_0_n_n 512 rfl rfl).symm k) = ix2 p k :=
    funext fun a => Fin.ext (by
      match a with
      | ⟨0, _⟩ =>
        show (dot_S256x512_S4096x512_S256x4096_1_1_0_0_n_n.lhsIdx (ix2 p o) _ 0).val = p.val
        unfold DotDims.lhsIdx
        rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
        rfl
      | ⟨1, _⟩ => exact (dot_S256x512_S4096x512_S256x4096_1_1_0_0_n_n.lhsIdx_val_of_single rfl (ix2 p o) _).trans hk)
  have er : dot_S256x512_S4096x512_S256x4096_1_1_0_0_n_n.rhsIdx (ix2 p o) ((contrEquiv1 dot_S256x512_S4096x512_S256x4096_1_1_0_0_n_n 512 rfl rfl).symm k) = ix2 o k :=
    funext fun a => Fin.ext (by
      match a with
      | ⟨0, _⟩ =>
        show (dot_S256x512_S4096x512_S256x4096_1_1_0_0_n_n.rhsIdx (ix2 p o) _ 0).val = o.val
        unfold DotDims.rhsIdx
        rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
        rfl
      | ⟨1, _⟩ => exact (dot_S256x512_S4096x512_S256x4096_1_1_0_0_n_n.rhsIdx_val_of_single rfl (ix2 p o) _).trans hk)
  rw [el, er]

/-- The hidden rows against the rows of the second weight matrix, likewise. -/
theorem matmul_h (l : FVec Ideal S256x1024 .bf16) (r : FVec Ideal S4096x1024 .bf16) (p : Fin 256) (o : Fin 4096) :
    matmul dot_S256x1024_S4096x1024_S256x4096_1_1_0_0_n_n none l r (constant S256x4096 .f32 0x00000000#32) (ix2 p o)
      = ∑ k : Fin 1024, l (ix2 p k) * r (ix2 o k) := by
  simp only [matmul]
  rw [Ideal.matmul_constant_zero_apply, ← Equiv.sum_comp (contrEquiv1 dot_S256x1024_S4096x1024_S256x4096_1_1_0_0_n_n 1024 rfl rfl).symm]
  refine Finset.sum_congr rfl fun k _ => ?_
  have hk := contrEquiv1_symm_val dot_S256x1024_S4096x1024_S256x4096_1_1_0_0_n_n 1024 rfl rfl k
  have el : dot_S256x1024_S4096x1024_S256x4096_1_1_0_0_n_n.lhsIdx (ix2 p o) ((contrEquiv1 dot_S256x1024_S4096x1024_S256x4096_1_1_0_0_n_n 1024 rfl rfl).symm k) = ix2 p k :=
    funext fun a => Fin.ext (by
      match a with
      | ⟨0, _⟩ =>
        show (dot_S256x1024_S4096x1024_S256x4096_1_1_0_0_n_n.lhsIdx (ix2 p o) _ 0).val = p.val
        unfold DotDims.lhsIdx
        rw [dif_neg (show ¬(0 : Fin S256x1024.rank) ∈ dot_S256x1024_S4096x1024_S256x4096_1_1_0_0_n_n.lhsBatch by decide), dif_pos (show (0 : Fin S256x1024.rank) ∈ dot_S256x1024_S4096x1024_S256x4096_1_1_0_0_n_n.lhsNonContracting by decide)]
        rfl
      | ⟨1, _⟩ => exact (dot_S256x1024_S4096x1024_S256x4096_1_1_0_0_n_n.lhsIdx_val_of_single rfl (ix2 p o) _).trans hk)
  have er : dot_S256x1024_S4096x1024_S256x4096_1_1_0_0_n_n.rhsIdx (ix2 p o) ((contrEquiv1 dot_S256x1024_S4096x1024_S256x4096_1_1_0_0_n_n 1024 rfl rfl).symm k) = ix2 o k :=
    funext fun a => Fin.ext (by
      match a with
      | ⟨0, _⟩ =>
        show (dot_S256x1024_S4096x1024_S256x4096_1_1_0_0_n_n.rhsIdx (ix2 p o) _ 0).val = o.val
        unfold DotDims.rhsIdx
        rw [dif_neg (show ¬(0 : Fin S4096x1024.rank) ∈ dot_S256x1024_S4096x1024_S256x4096_1_1_0_0_n_n.rhsBatch by decide), dif_pos (show (0 : Fin S4096x1024.rank) ∈ dot_S256x1024_S4096x1024_S256x4096_1_1_0_0_n_n.rhsNonContracting by decide)]
        rfl
      | ⟨1, _⟩ => exact (dot_S256x1024_S4096x1024_S256x4096_1_1_0_0_n_n.rhsIdx_val_of_single rfl (ix2 p o) _).trans hk)
  rw [el, er]

/-- Entry (p, o) of the summed products is the pre-activation of block row p at column o. -/
theorem pay2_apply (v0 : Vec Ideal S256x512 .f32) (v2 : Vec Ideal S256x1024 .f32) (v4 : Vec Ideal S4096x512 .bf16)
    (v6 : Vec Ideal S4096x1024 .bf16) (p : Fin 256) (o : Fin 4096) :
    k0_pay2 v0 v2 v4 v6 (ix2 p o)
      = lin (fun k => v0 (ix2 p k)) (fun k => v2 (ix2 p k)) (fun o k => v4 (ix2 o k)) (fun o k => v6 (ix2 o k)) o := by
  unfold k0_pay2
  rw [addf_apply, matmul_x, matmul_h, shapeCast_self, shapeCast_self]
  rfl

/-! ## The gate chunks: the four column ranges of the pre-activation block -/

variable {α : Type}

theorem slice_col0 {n0 : Nat} (X : (⟨2, ![n0, 4096]⟩ : Shape).Idx → α)
    (h : (⟨2, ![n0, 4096]⟩ : Shape).Slices ![0, 0] ⟨2, ![n0, 1024]⟩) (a : Fin n0) (j : Fin 1024) :
    extractStridedSlice ⟨2, ![n0, 1024]⟩ ![0, 0] X h (ix2 a j) = X (ix2 a (col 0 j)) :=
  slice2_axis1_apply 0 X h a j _ (by show 1024 * 0 + j.val = 0 + j.val; omega)

theorem slice_col1 {n0 : Nat} (X : (⟨2, ![n0, 4096]⟩ : Shape).Idx → α)
    (h : (⟨2, ![n0, 4096]⟩ : Shape).Slices ![0, 1024] ⟨2, ![n0, 1024]⟩) (a : Fin n0) (j : Fin 1024) :
    extractStridedSlice ⟨2, ![n0, 1024]⟩ ![0, 1024] X h (ix2 a j) = X (ix2 a (col 1 j)) :=
  slice2_axis1_apply 1024 X h a j _ (by show 1024 * 1 + j.val = 1024 + j.val; omega)

theorem slice_col2 {n0 : Nat} (X : (⟨2, ![n0, 4096]⟩ : Shape).Idx → α)
    (h : (⟨2, ![n0, 4096]⟩ : Shape).Slices ![0, 2048] ⟨2, ![n0, 1024]⟩) (a : Fin n0) (j : Fin 1024) :
    extractStridedSlice ⟨2, ![n0, 1024]⟩ ![0, 2048] X h (ix2 a j) = X (ix2 a (col 2 j)) :=
  slice2_axis1_apply 2048 X h a j _ (by show 1024 * 2 + j.val = 2048 + j.val; omega)

theorem slice_col3 {n0 : Nat} (X : (⟨2, ![n0, 4096]⟩ : Shape).Idx → α)
    (h : (⟨2, ![n0, 4096]⟩ : Shape).Slices ![0, 3072] ⟨2, ![n0, 1024]⟩) (a : Fin n0) (j : Fin 1024) :
    extractStridedSlice ⟨2, ![n0, 1024]⟩ ![0, 3072] X h (ix2 a j) = X (ix2 a (col 3 j)) :=
  slice2_axis1_apply 3072 X h a j _ (by show 1024 * 3 + j.val = 3072 + j.val; omega)

section Chunks

variable (v0 : Vec Ideal S256x512 .f32) (v2 : Vec Ideal S256x1024 .f32) (v4 : Vec Ideal S4096x512 .bf16)
  (v6 : Vec Ideal S4096x1024 .bf16) (p : Fin 256) (j : Fin 1024)

/-- The pre-activation of block row p as a function of the column. -/
abbrev linRow : Fin 4096 → EReal :=
  lin (fun k => v0 (ix2 p k)) (fun k => v2 (ix2 p k)) (fun o k => v4 (ix2 o k)) (fun o k => v6 (ix2 o k))

theorem pay7_apply : k0_pay7 v0 v2 v4 v6 (ix2 p j) = linRow v0 v2 v4 v6 p (col 0 j) := by
  unfold k0_pay7; rw [slice_col0, pay2_apply]
theorem pay8_apply : k0_pay8 v0 v2 v4 v6 (ix2 p j) = linRow v0 v2 v4 v6 p (col 1 j) := by
  unfold k0_pay8; rw [slice_col1, pay2_apply]
theorem pay9_apply : k0_pay9 v0 v2 v4 v6 (ix2 p j) = linRow v0 v2 v4 v6 p (col 2 j) := by
  unfold k0_pay9; rw [slice_col2, pay2_apply]
theorem pay10_apply : k0_pay10 v0 v2 v4 v6 (ix2 p j) = linRow v0 v2 v4 v6 p (col 3 j) := by
  unfold k0_pay10; rw [slice_col3, pay2_apply]

end Chunks

end Cert.LnLstm.Ker

end
-- ==== Proof.LibColumn.lean ====
/-
  Column-shaped arrays read at one entry.

  A vector of length a and the a-by-1 column and the 1-by-a row with the same entries are one list of numbers in
  row-major order, so a reshape between any two of them reads the same entry: the column's entry (p, 0) is the
  vector's entry p, and the row's entry (0, j) is the column's entry (j, 0). The last lemma reads a sum along the
  second axis of an n-by-b array, taken from the zero accumulator, at row p: it is the sum over j < b of the entries
  (p, j), at the exact (extended real) reading of floats.
-/
import Idealize.ShloMosaic.Lib.ValueLayout
import Idealize.ShloMosaic.PureOps.Ideal.Laws

noncomputable section

namespace Cert.LibColumn

open Idealize.ShloMosaic Idealize.ShloMosaic.ValueIdx

variable {α : Type}

/-- A vector of length a reshaped to an a-by-1 column reads, at (p, u), the vector at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An a-by-1 column reshaped to a vector of length a reads, at p, the column at (p, 0). -/
theorem shapeCast_a1_a_apply {a : ℕ} (x : (⟨2, ![a, 1]⟩ : Shape).Idx → α) (h : (⟨2, ![a, 1]⟩ : Shape).ShapeCasts ⟨1, ![a]⟩)
    (p : Fin a) : shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-- An a-by-1 column reshaped to a 1-by-a row reads, at (u, j), the column at (j, 0). -/
theorem shapeCast_a1_1a_apply {a : ℕ} (x : (⟨2, ![a, 1]⟩ : Shape).Idx → α) (h : (⟨2, ![a, 1]⟩ : Shape).ShapeCasts ⟨2, ![1, a]⟩)
    (u : Fin 1) (j : Fin a) : shapeCast ⟨2, ![1, a]⟩ x h (ix2 u j) = x (ix2 j (0 : Fin 1)) :=
  shapeCast_apply x h _ _ (by
    have hu : u.val = 0 := by omega
    rw [Shape.rowMajor_val_two, Shape.rowMajor_val_two]
    show j.val * 1 + 0 = u.val * a + j.val
    rw [hu, Nat.mul_one, Nat.add_zero, Nat.zero_mul, Nat.zero_add])

/-- The sum along the second axis of an n-by-b array, from the zero accumulator, at row p: the sum of that row. -/
theorem laneSum_apply {n b : ℕ} (src : FVec Ideal ⟨2, ![n, b]⟩ .f32) (h : Shape.Reduces ⟨2, ![n, b]⟩ [1] ⟨1, ![n]⟩)
    (hφ : FKind.Formats .f32) (hacc : (0x00000000#32 : BitVec 32) = 0x00000000#32) (p : Fin n) :
    multiReduction .add [1] ⟨1, ![n]⟩ src 0x00000000#32 h hφ hacc (ix1 p) = ∑ j : Fin b, src (ix2 p j) := by
  refine (Ideal.multiReduction_add_single src 0x00000000#32 h hφ hacc (ix1 p)).trans ?_
  refine Finset.sum_congr rfl fun j _ => congrArg src ?_
  funext a
  exact Fin.ext (by match a with | ⟨0, _⟩ => rfl | ⟨1, _⟩ => rfl)

end Cert.LibColumn

end
-- ==== Proof.LibKeepdims.lean ====
/-
  Layout operations of a row reduction kept as a column, read at an index given by coordinates.

  A reduction over the columns of an [a, b] array gives an [a] vector. Keeping the reduced axis makes it an [a, 1]
  column (a shape cast on the kernel's side, a broadcast along the axes [0] on the host's), and the column is then
  spread over the b columns (a broadcast [a, 1] → [a, b]). Read at (p, c) the spread column is the vector at p.
-/
import Idealize.ShloMosaic.Lib.ValueLayout

namespace Cert.Lib.Keepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's form of the first: an `[a]` array broadcast along the axes `[0]` to `[a, 1]`. -/
theorem broadcastInDim_a_a1_apply {a : ℕ} (v : (⟨1, ![a]⟩ : Shape).Idx → α)
    (h : (⟨1, ![a]⟩ : Shape).BroadcastsInDim ⟨2, ![a, 1]⟩ (![0] : Fin 1 → Fin (⟨2, ![a, 1]⟩ : Shape).rank))
    (p : Fin a) (u : Fin 1) : broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- The host's form of the second: an `[a, 1]` column broadcast along the axes `[0, 1]` to `[a, b]`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (p : Fin a) (c : Fin b) : broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.KerNorm.lean ====
/-
  The kernel's normalisations, gates and the two stored blocks, entry by entry.

  Every normalisation in the body has one shape: a lane sum over the 1024 columns kept as a 256-by-1 column,
  divided by 1024 (the row's mean), spread back over the columns and subtracted; the squares summed and divided in
  the same way (the row's variance); the reciprocal root of the variance plus the small constant spread back and
  multiplied in. Read at entry (p, q) each such piece depends on row p only, so it is the row-wise mean, variance
  and normalised entry of the specification. The scale and shift vectors are rows of length 4096 cut at the gate's
  column range, or rows of length 1024, spread over the 256 block rows. The machine's logistic is the quotient
  1 / (1 + exp (-x)) on the extended reals.
-/
import proofs.«170549_j14980845928861_2_alg».proof.Proof.KerLin
import proofs.«170549_j14980845928861_2_alg».proof.Proof.LibColumn
import proofs.«170549_j14980845928861_2_alg».proof.Proof.LibKeepdims

noncomputable section

namespace Cert.LnLstm.Ker

open Cert.KernelIdeal Cert.KernelIdeal.Gen Idealize.ShloMosaic Idealize.ShloMosaic.ValueIdx

section Pointwise
variable {s : Shape} {φ : FTy}
theorem rsqrt_apply (a : FVec Ideal s φ) (i : s.Idx) : rsqrt a i = Ideal.rsqrt (a i) := rfl
theorem tanh_apply (a : FVec Ideal s φ) (i : s.Idx) : tanh a i = Ideal.tanh (a i) := rfl
theorem logistic_apply (a : FVec Ideal s φ) (i : s.Idx) : logistic a i = Ideal.logistic (a i) := rfl
theorem scalar_ofBits (b : BitVec 32) : (Scalar.ofBits .f32 b : Ideal .f32) = Ideal.ofBits .f32 b := rfl
end Pointwise

/-- The literal 1 is the real number one. -/
theorem cOne_eq : cOne = 1 := IdealRules.sign_bit.ideal_onePat .f32

/-- The logistic function is the sigmoid quotient. -/
theorem logistic_eq_sigm (x : EReal) : Ideal.logistic x = sigm x := by
  unfold Ideal.logistic sigm
  rw [cOne_eq]

/-- Reading any piece of the body at an entry: the pointwise operations, the kept column, the lane sum, the
    two spreads, the column cuts. -/
macro "ker_read" : tactic => `(tactic| repeat (first
  | rw [Cert.LibColumn.laneSum_apply]
  | simp only [addf_apply, mulf_apply, subf_apply, divf_apply, broadcast_apply, rsqrt_apply, tanh_apply, logistic_apply, scalar_ofBits, Cert.LibColumn.shapeCast_a_a1_apply, Cert.Lib.Keepdims.broadcastTo_a1_ab_apply, broadcastTo_1b_ab_apply, slice_col0, slice_col1, slice_col2, slice_col3]))

section Pieces

variable (p : Fin 256) (q : Fin 1024) (u : Fin 1)

theorem pay3_eq (v : Vec Ideal S1x4096 .f32) : k0_pay3 v = v := by unfold k0_pay3; exact shapeCast_self _ _
theorem pay4_eq (v : Vec Ideal S1x4096 .f32) : k0_pay4 v = v := by unfold k0_pay4; exact shapeCast_self _ _
theorem pay5_eq (v : Vec Ideal S1x1024 .f32) : k0_pay5 v = v := by unfold k0_pay5; exact shapeCast_self _ _
theorem pay6_eq (v : Vec Ideal S1x1024 .f32) : k0_pay6 v = v := by unfold k0_pay6; exact shapeCast_self _ _

variable (v0 : Vec Ideal S256x512 .f32) (v2 : Vec Ideal S256x1024 .f32) (v4 : Vec Ideal S4096x512 .bf16)
  (v6 : Vec Ideal S4096x1024 .bf16)

/-- The first gate's mean column at row p. -/
theorem pay11_apply : k0_pay11 v0 v2 v4 v6 (ix2 p u) = mean (fun k => k0_pay7 v0 v2 v4 v6 (ix2 p k)) := by
  unfold k0_pay11
  ker_read
  rfl

/-- The first gate's variance column at row p. -/
theorem pay12_apply : k0_pay12 v0 v2 v4 v6 (ix2 p u) = var (fun k => k0_pay7 v0 v2 v4 v6 (ix2 p k)) := by
  unfold k0_pay12
  ker_read
  simp only [pay11_apply]
  rfl

variable (v13 v15 : FVec Ideal S1x4096 .f32)

/-- The first gate from its chunk, its mean column and its variance column. -/
theorem pay13_apply (v20 : FVec Ideal S256x1024 .f32) (v27 v34 : FVec Ideal S256x1 .f32) :
    k0_pay13 v13 v15 v20 v27 v34 (ix2 p q)
      = (v20 (ix2 p q) - v27 (ix2 p (0 : Fin 1))) * Ideal.rsqrt (v34 (ix2 p (0 : Fin 1)) + cEps)
          * v13 (ix2 (0 : Fin 1) (col 0 q)) + v15 (ix2 (0 : Fin 1) (col 0 q)) := by
  unfold k0_pay13
  ker_read

/-- The second gate from its chunk: the whole normalisation. -/
theorem pay14_apply (v21 : FVec Ideal S256x1024 .f32) :
    k0_pay14 v13 v15 v21 (ix2 p q)
      = lnorm (fun k => v21 (ix2 p k)) q * v13 (ix2 (0 : Fin 1) (col 1 q)) + v15 (ix2 (0 : Fin 1) (col 1 q)) := by
  unfold k0_pay14
  ker_read
  rfl

/-- The third gate's mean column. -/
theorem pay15_apply (v22 : FVec Ideal S256x1024 .f32) : k0_pay15 v22 (ix2 p u) = mean (fun k => v22 (ix2 p k)) := by
  unfold k0_pay15
  ker_read
  rfl

/-- The third gate's variance column. -/
theorem pay16_apply (v22 : FVec Ideal S256x1024 .f32) : k0_pay16 v22 (ix2 p u) = var (fun k => v22 (ix2 p k)) := by
  unfold k0_pay16
  ker_read
  simp only [pay15_apply]
  rfl

/-- The third gate's chunk with its mean subtracted. -/
theorem pay17_apply (v22 : FVec Ideal S256x1024 .f32) :
    k0_pay17 v22 (ix2 p q) = v22 (ix2 p q) - mean (fun k => v22 (ix2 p k)) := by
  unfold k0_pay17
  ker_read
  simp only [pay15_apply]

/-- The output gate's sigmoid from the centred chunk and the variance column. -/
theorem pay18_apply (v82 : FVec Ideal S256x1 .f32) (v84 : FVec Ideal S256x1024 .f32) :
    k0_pay18 v13 v15 v82 v84 (ix2 p q)
      = Ideal.logistic (v84 (ix2 p q) * Ideal.rsqrt (v82 (ix2 p (0 : Fin 1)) + cEps)
          * v13 (ix2 (0 : Fin 1) (col 2 q)) + v15 (ix2 (0 : Fin 1) (col 2 q))) := by
  unfold k0_pay18
  ker_read

/-- The new cell block from the old cell block, the candidate's chunk and the first two gates. -/
theorem pay19_apply (v11 : Vec Ideal S256x1024 .f32) (v23 v47 v71 : FVec Ideal S256x1024 .f32) :
    k0_pay19 v11 v13 v15 v23 v47 v71 (ix2 p q)
      = Ideal.logistic (v71 (ix2 p q) + cOne) * v11 (ix2 p q)
        + Ideal.logistic (v47 (ix2 p q))
          * Ideal.tanh (lnorm (fun k => v23 (ix2 p k)) q * v13 (ix2 (0 : Fin 1) (col 3 q)) + v15 (ix2 (0 : Fin 1) (col 3 q))) := by
  unfold k0_pay19
  ker_read
  rfl

/-- The new cell block's mean column. -/
theorem pay20_apply (v11 : Vec Ideal S256x1024 .f32) (v23 v47 v71 : FVec Ideal S256x1024 .f32) :
    k0_pay20 v11 v13 v15 v23 v47 v71 (ix2 p u) = mean (fun k => k0_pay19 v11 v13 v15 v23 v47 v71 (ix2 p k)) := by
  unfold k0_pay20
  ker_read
  rfl

/-- The new cell block's squared distances from the row mean. -/
theorem pay21_apply (v11 : Vec Ideal S256x1024 .f32) (v23 v47 v71 : FVec Ideal S256x1024 .f32) :
    k0_pay21 v11 v13 v15 v23 v47 v71 (ix2 p q)
      = (k0_pay19 v11 v13 v15 v23 v47 v71 (ix2 p q) - mean (fun k => k0_pay19 v11 v13 v15 v23 v47 v71 (ix2 p k)))
        * (k0_pay19 v11 v13 v15 v23 v47 v71 (ix2 p q) - mean (fun k => k0_pay19 v11 v13 v15 v23 v47 v71 (ix2 p k))) := by
  unfold k0_pay21
  ker_read
  simp only [pay20_apply]

/-- The new hidden block from the output gate, the new cell block, its mean column and its squared distances. -/
theorem pay1_apply (v17 v19 : FVec Ideal S1x1024 .f32) (v124 v128 : FVec Ideal S256x1024 .f32)
    (v132 : FVec Ideal S256x1 .f32) (v135 : FVec Ideal S256x1024 .f32) :
    k0_pay1 v17 v19 v124 v128 v132 v135 (ix2 p q)
      = v124 (ix2 p q)
        * Ideal.tanh ((v128 (ix2 p q) - v132 (ix2 p (0 : Fin 1)))
            * Ideal.rsqrt (Ideal.div (∑ k : Fin 1024, v135 (ix2 p k)) cN + cEps)
            * v17 (ix2 (0 : Fin 1) q) + v19 (ix2 (0 : Fin 1) q)) := by
  unfold k0_pay1
  ker_read

end Pieces

end Cert.LnLstm.Ker

end
-- ==== Proof.KerCell.lean ====
/-
  The two stored blocks of one grid point as the cell of the specification, row by row.

  The loaded blocks are variables here: a 256-row block of inputs, of hidden rows and of cell rows, the two whole
  weight matrices, and the four scale and shift rows. Entry (p, q) of the block stored to the new-cell window is
  the specification's new cell of block row p at entry q, and entry (p, q) of the block stored to the new-hidden
  window its new hidden entry: each gate's normalised chunk is the chunk of row p's pre-activations normalised,
  the machine's logistic is the sigmoid quotient, and the second normalisation runs over row p of the new cell
  block.
-/
import proofs.«170549_j14980845928861_2_alg».proof.Proof.KerNorm

noncomputable section

namespace Cert.LnLstm.Ker

open Cert.KernelIdeal Cert.KernelIdeal.Gen Idealize.ShloMosaic Idealize.ShloMosaic.ValueIdx

variable (P0 : Vec Ideal S256x512 .f32) (P1 : Vec Ideal S256x1024 .f32) (P2 : Vec Ideal S4096x512 .bf16)
  (P3 : Vec Ideal S4096x1024 .bf16) (P4 P5 : Vec Ideal S1x4096 .f32) (P6 : Vec Ideal S256x1024 .f32)
  (P7 P8 : Vec Ideal S1x1024 .f32) (p : Fin 256) (q : Fin 1024)

/-- Gate g of block row p at entry q, from the loaded blocks. -/
abbrev gateB (g : Fin 4) (q : Fin 1024) : EReal :=
  gate (fun k => P0 (ix2 p k)) (fun k => P1 (ix2 p k)) (fun o k => P2 (ix2 o k)) (fun o k => P3 (ix2 o k))
    (fun o => P4 (ix2 (0 : Fin 1) o)) (fun o => P5 (ix2 (0 : Fin 1) o)) g q

/-- The new cell of block row p at entry q, from the loaded blocks. -/
abbrev cNewB (q : Fin 1024) : EReal :=
  cNew (fun k => P0 (ix2 p k)) (fun k => P1 (ix2 p k)) (fun k => P6 (ix2 p k)) (fun o k => P2 (ix2 o k))
    (fun o k => P3 (ix2 o k)) (fun o => P4 (ix2 (0 : Fin 1) o)) (fun o => P5 (ix2 (0 : Fin 1) o)) q

/-- The new hidden entry of block row p at entry q, from the loaded blocks. -/
abbrev hNewB (q : Fin 1024) : EReal :=
  hNew (fun k => P0 (ix2 p k)) (fun k => P1 (ix2 p k)) (fun k => P6 (ix2 p k)) (fun o k => P2 (ix2 o k))
    (fun o k => P3 (ix2 o k)) (fun o => P4 (ix2 (0 : Fin 1) o)) (fun o => P5 (ix2 (0 : Fin 1) o))
    (fun k => P7 (ix2 (0 : Fin 1) k)) (fun k => P8 (ix2 (0 : Fin 1) k)) q

/-- The input gate before its sigmoid. -/
theorem gate0_eq :
    k0_pay13 (k0_pay3 P4) (k0_pay4 P5) (k0_pay7 P0 P1 P2 P3) (k0_pay11 P0 P1 P2 P3) (k0_pay12 P0 P1 P2 P3) (ix2 p q)
      = gateB P0 P1 P2 P3 P4 P5 p 0 q := by
  rw [pay13_apply, pay11_apply, pay12_apply, pay7_apply, pay3_eq, pay4_eq]
  simp only [pay7_apply]
  rfl

/-- The forget gate before its offset and sigmoid. -/
theorem gate1_eq :
    k0_pay14 (k0_pay3 P4) (k0_pay4 P5) (k0_pay8 P0 P1 P2 P3) (ix2 p q) = gateB P0 P1 P2 P3 P4 P5 p 1 q := by
  rw [pay14_apply, pay3_eq, pay4_eq]
  simp only [pay8_apply]
  rfl

/-- The output gate after its sigmoid. -/
theorem gate2_eq :
    k0_pay18 (k0_pay3 P4) (k0_pay4 P5) (k0_pay16 (k0_pay9 P0 P1 P2 P3)) (k0_pay17 (k0_pay9 P0 P1 P2 P3)) (ix2 p q)
      = sigm (gateB P0 P1 P2 P3 P4 P5 p 2 q) := by
  rw [pay18_apply, pay16_apply, pay17_apply, pay3_eq, pay4_eq, logistic_eq_sigm]
  simp only [pay9_apply]
  rfl

/-- The block stored to the new-cell window. -/
theorem cnew_eq :
    k0_pay19 P6 (k0_pay3 P4) (k0_pay4 P5) (k0_pay10 P0 P1 P2 P3)
        (k0_pay13 (k0_pay3 P4) (k0_pay4 P5) (k0_pay7 P0 P1 P2 P3) (k0_pay11 P0 P1 P2 P3) (k0_pay12 P0 P1 P2 P3))
        (k0_pay14 (k0_pay3 P4) (k0_pay4 P5) (k0_pay8 P0 P1 P2 P3)) (ix2 p q)
      = cNewB P0 P1 P2 P3 P4 P5 P6 p q := by
  rw [pay19_apply, gate0_eq, gate1_eq, pay3_eq, pay4_eq, logistic_eq_sigm, logistic_eq_sigm]
  simp only [pay10_apply]
  rfl

/-- The block stored to the new-hidden window. -/
theorem hnew_eq :
    k0_pay1 (k0_pay5 P7) (k0_pay6 P8)
        (k0_pay18 (k0_pay3 P4) (k0_pay4 P5) (k0_pay16 (k0_pay9 P0 P1 P2 P3)) (k0_pay17 (k0_pay9 P0 P1 P2 P3)))
        (k0_pay19 P6 (k0_pay3 P4) (k0_pay4 P5) (k0_pay10 P0 P1 P2 P3)
          (k0_pay13 (k0_pay3 P4) (k0_pay4 P5) (k0_pay7 P0 P1 P2 P3) (k0_pay11 P0 P1 P2 P3) (k0_pay12 P0 P1 P2 P3))
          (k0_pay14 (k0_pay3 P4) (k0_pay4 P5) (k0_pay8 P0 P1 P2 P3)))
        (k0_pay20 P6 (k0_pay3 P4) (k0_pay4 P5) (k0_pay10 P0 P1 P2 P3)
          (k0_pay13 (k0_pay3 P4) (k0_pay4 P5) (k0_pay7 P0 P1 P2 P3) (k0_pay11 P0 P1 P2 P3) (k0_pay12 P0 P1 P2 P3))
          (k0_pay14 (k0_pay3 P4) (k0_pay4 P5) (k0_pay8 P0 P1 P2 P3)))
        (k0_pay21 P6 (k0_pay3 P4) (k0_pay4 P5) (k0_pay10 P0 P1 P2 P3)
          (k0_pay13 (k0_pay3 P4) (k0_pay4 P5) (k0_pay7 P0 P1 P2 P3) (k0_pay11 P0 P1 P2 P3) (k0_pay12 P0 P1 P2 P3))
          (k0_pay14 (k0_pay3 P4) (k0_pay4 P5) (k0_pay8 P0 P1 P2 P3))) (ix2 p q)
      = hNewB P0 P1 P2 P3 P4 P5 P6 P7 P8 p q := by
  rw [pay1_apply, gate2_eq, cnew_eq, pay20_apply, pay5_eq, pay6_eq]
  simp only [pay21_apply, cnew_eq]
  rfl

end Cert.LnLstm.Ker

end
-- ==== Proof.KerArray.lean ====
/-
  From the blocks of the sixteen grid points to the two result arrays.

  Grid point t stages rows 256 t … 256 t + 255 of the input, hidden and cell arrays, the two weight matrices
  whole and the four scale and shift rows whole, and writes back rows 256 t … 256 t + 255 of the two result
  arrays. Entry (p, q) of what it writes back is the specification's cell of array row 256 t + p at entry q, so
  each written block is a block of one whole-array function; the sixteen blocks cover the 4096 rows, so each
  result array ends as that function. The arrays the region finds are the launch contents: the weights after a
  change of float format (the identity on the extended reals), the four vectors as rows of a one-row matrix.
-/
import proofs.«170549_j14980845928861_2_alg».proof.Proof.KerCell
import proofs.«170549_j14980845928861_2_alg».proof.Proof.KerValueP
import Idealize.ShloMosaic.Lib.StableHlo.Run
import Idealize.ShloMosaic.Lib.Tactic

noncomputable section

namespace Cert.LnLstm.KerArr

open Cert.KernelIdeal Cert.KernelIdeal.Gen Cert.KernelIdeal.ValueP Idealize.ShloMosaic Idealize.ShloMosaic.TcCoe Idealize.SL.Sem
open Idealize.ShloMosaic.ValueIdx Cert.LnLstm.Ker
open Idealize.ShloMosaic.Pipeline (Dat)

variable (m : (ℓ : Loc nD τ sig) → Buf (Elt Ideal) ℓ) (ρ : Dev nD → PrngReg)

/-- The new cell row depends on its seven row and matrix arguments entry by entry. -/
theorem cNew_congr {xr xr' : Fin 512 → EReal} {hr hr' cr cr' : Fin 1024 → EReal} {wih wih' : Fin 4096 → Fin 512 → EReal}
    {whh whh' : Fin 4096 → Fin 1024 → EReal} {gw gw' gb gb' : Fin 4096 → EReal} (q : Fin 1024)
    (h1 : ∀ k, xr k = xr' k) (h2 : ∀ k, hr k = hr' k) (h3 : ∀ k, cr k = cr' k) (h4 : ∀ o k, wih o k = wih' o k)
    (h5 : ∀ o k, whh o k = whh' o k) (h6 : ∀ o, gw o = gw' o) (h7 : ∀ o, gb o = gb' o) :
    cNew xr hr cr wih whh gw gb q = cNew xr' hr' cr' wih' whh' gw' gb' q := by
  obtain rfl : xr = xr' := funext h1
  obtain rfl : hr = hr' := funext h2
  obtain rfl : cr = cr' := funext h3
  obtain rfl : wih = wih' := funext fun o => funext (h4 o)
  obtain rfl : whh = whh' := funext fun o => funext (h5 o)
  obtain rfl : gw = gw' := funext h6
  obtain rfl : gb = gb' := funext h7
  rfl

/-- The new hidden row depends on its nine row and matrix arguments entry by entry. -/
theorem hNew_congr {xr xr' : Fin 512 → EReal} {hr hr' cr cr' : Fin 1024 → EReal} {wih wih' : Fin 4096 → Fin 512 → EReal}
    {whh whh' : Fin 4096 → Fin 1024 → EReal} {gw gw' gb gb' : Fin 4096 → EReal} {cw cw' cb cb' : Fin 1024 → EReal} (q : Fin 1024)
    (h1 : ∀ k, xr k = xr' k) (h2 : ∀ k, hr k = hr' k) (h3 : ∀ k, cr k = cr' k) (h4 : ∀ o k, wih o k = wih' o k)
    (h5 : ∀ o k, whh o k = whh' o k) (h6 : ∀ o, gw o = gw' o) (h7 : ∀ o, gb o = gb' o) (h8 : ∀ k, cw k = cw' k)
    (h9 : ∀ k, cb k = cb' k) :
    hNew xr hr cr wih whh gw gb cw cb q = hNew xr' hr' cr' wih' whh' gw' gb' cw' cb' q := by
  obtain rfl : xr = xr' := funext h1
  obtain rfl : hr = hr' := funext h2
  obtain rfl : cr = cr' := funext h3
  obtain rfl : wih = wih' := funext fun o => funext (h4 o)
  obtain rfl : whh = whh' := funext fun o => funext (h5 o)
  obtain rfl : gw = gw' := funext h6
  obtain rfl : gb = gb' := funext h7
  obtain rfl : cw = cw' := funext h8
  obtain rfl : cb = cb' := funext h9
  rfl

theorem hz : (![0, 0] : Fin 2 → Nat) = fun _ => 0 := funext fun a => by fin_cases a <;> rfl

theorem idx_facts : ∀ t : Fin cfg0.N,
    win0_0.index t (0 : Fin 2) = win0_9.index t (0 : Fin 2) ∧ win0_0.index t (1 : Fin 2) = 0
    ∧ win0_1.index t (0 : Fin 2) = win0_9.index t (0 : Fin 2) ∧ win0_1.index t (1 : Fin 2) = 0
    ∧ win0_2.index t (0 : Fin 2) = win0_9.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_10.index t (0 : Fin 2) = win0_9.index t (0 : Fin 2) ∧ win0_10.index t (1 : Fin 2) = 0
    ∧ win0_9.index t (1 : Fin 2) = 0 ∧ win0_9.index t (0 : Fin 2) ≤ 15 :=
  (by decide +kernel : ∀ t : Fin grid0.N, _)

theorem idx_onto : ∀ q0 : Fin 16, ∃ t : Fin cfg0.N, win0_9.index t (0 : Fin 2) = q0.val :=
  (by decide +kernel : ∀ q0 : Fin 16, ∃ t : Fin grid0.N, win0_9.index t (0 : Fin 2) = q0.val)

/-- The input block of a grid point is rows of the input array. -/
theorem blk0_read (c : Dev nD) (t : Fin cfg0.N) (p : Fin 256) (k : Fin 512) (b : Fin 4096)
    (hb : b.val = win0_9.index t (0 : Fin 2) * 256 + p.val) :
    (iblk m c 0 t : Vec Ideal S256x512 .f32) (ix2 p k) = (V m c main_arg0 : S4096x512.Idx → EReal) (ix2 b k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 256 + 1 * p.val = b.val; omega
  | ⟨1, _⟩ => show win0_0.index t (1 : Fin 2) * 512 + 1 * k.val = k.val; omega

theorem blk1_read (c : Dev nD) (t : Fin cfg0.N) (p : Fin 256) (k : Fin 1024) (b : Fin 4096)
    (hb : b.val = win0_9.index t (0 : Fin 2) * 256 + p.val) :
    (iblk m c 1 t : Vec Ideal S256x1024 .f32) (ix2 p k) = (V m c main_arg1 : S4096x1024.Idx → EReal) (ix2 b k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * p.val = b.val; omega
  | ⟨1, _⟩ => show win0_1.index t (1 : Fin 2) * 1024 + 1 * k.val = k.val; omega

theorem blk2_read (c : Dev nD) (t : Fin cfg0.N) (p : Fin 256) (k : Fin 1024) (b : Fin 4096)
    (hb : b.val = win0_9.index t (0 : Fin 2) * 256 + p.val) :
    (iblk m c 2 t : Vec Ideal S256x1024 .f32) (ix2 p k) = (V m c main_arg2 : S4096x1024.Idx → EReal) (ix2 b k) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * p.val = b.val; omega
  | ⟨1, _⟩ => show win0_2.index t (1 : Fin 2) * 1024 + 1 * k.val = k.val; omega

theorem blk3_read (c : Dev nD) (t : Fin cfg0.N) (o : Fin 4096) (k : Fin 512) :
    (iblk m c 3 t : Vec Ideal S4096x512 .bf16) (ix2 o k) = (V m c main_v0 : S4096x512.Idx → EReal) (ix2 o k) := by
  obtain ⟨-, -, -, -, -, -, e0, e1, -⟩ := idx_facts t
  unfold iblk
  rw [View.read_apply]
  show V m c main_v0 _ = V m c main_v0 _
  congr 1
  funext a
  apply Fin.ext
  match a with
  | ⟨0, _⟩ => show win0_3.index t (0 : Fin 2) * 4096 + 1 * o.val = o.val; omega
  | ⟨1, _⟩ => show win0_3.index t (1 : Fin 2) * 512 + 1 * k.val = k.val; omega

theorem blk4_read (c : Dev nD) (t : Fin cfg0.N) (o : Fin 4096) (k : Fin 1024) :
    (iblk m c 4 t : Vec Ideal S4096x1024 .bf16) (ix2 o k) = (V m c main_v1 : S4096x1024.Idx → EReal) (ix2 o k) := by
  obtain ⟨-, -, -, -, -, -, -, -, e0, e1, -⟩ := idx_facts t
  unfold iblk
  rw [View.read_apply]
  show V m c main_v1 _ = V m c main_v1 _
  congr 1
  funext a
  apply Fin.ext
  match a with
  | ⟨0, _⟩ => show win0_4.index t (0 : Fin 2) * 4096 + 1 * o.val = o.val; omega
  | ⟨1, _⟩ => show win0_4.index t (1 : Fin 2) * 1024 + 1 * k.val = k.val; omega

theorem blk5_read (c : Dev nD) (t : Fin cfg0.N) (o : Fin 4096) :
    (iblk m c 5 t : Vec Ideal S1x4096 .f32) (ix2 (0 : Fin 1) o) = (V m c main_v2 : S1x4096.Idx → EReal) (ix2 (0 : Fin 1) o) := by
  obtain ⟨-, -, -, -, -, -, -, -, -, -, e0, e1, -⟩ := idx_facts t
  unfold iblk
  rw [View.read_apply]
  show V m c main_v2 _ = V m c main_v2 _
  congr 1
  funext a
  apply Fin.ext
  match a with
  | ⟨0, _⟩ => show win0_5.index t (0 : Fin 2) * 1 + 1 * 0 = 0; omega
  | ⟨1, _⟩ => show win0_5.index t (1 : Fin 2) * 4096 + 1 * o.val = o.val; omega

theorem blk6_read (c : Dev nD) (t : Fin cfg0.N) (o : Fin 4096) :
    (iblk m c 6 t : Vec Ideal S1x4096 .f32) (ix2 (0 : Fin 1) o) = (V m c main_v3 : S1x4096.Idx → EReal) (ix2 (0 : Fin 1) o) := by
  obtain ⟨-, -, -, -, -, -, -, -, -, -, -, -, e0, e1, -⟩ := idx_facts t
  unfold iblk
  rw [View.read_apply]
  show V m c main_v3 _ = V m c main_v3 _
  congr 1
  funext a
  apply Fin.ext
  match a with
  | ⟨0, _⟩ => show win0_6.index t (0 : Fin 2) * 1 + 1 * 0 = 0; omega
  | ⟨1, _⟩ => show win0_6.index t (1 : Fin 2) * 4096 + 1 * o.val = o.val; omega

theorem blk7_read (c : Dev nD) (t : Fin cfg0.N) (o : Fin 1024) :
    (iblk m c 7 t : Vec Ideal S1x1024 .f32) (ix2 (0 : Fin 1) o) = (V m c main_v4 : S1x1024.Idx → EReal) (ix2 (0 : Fin 1) o) := by
  obtain ⟨-, -, -, -, -, -, -, -, -, -, -, -, -, -, e0, e1, -⟩ := idx_facts t
  unfold iblk
  rw [View.read_apply]
  show V m c main_v4 _ = V m c main_v4 _
  congr 1
  funext a
  apply Fin.ext
  match a with
  | ⟨0, _⟩ => show win0_7.index t (0 : Fin 2) * 1 + 1 * 0 = 0; omega
  | ⟨1, _⟩ => show win0_7.index t (1 : Fin 2) * 1024 + 1 * o.val = o.val; omega

theorem blk8_read (c : Dev nD) (t : Fin cfg0.N) (o : Fin 1024) :
    (iblk m c 8 t : Vec Ideal S1x1024 .f32) (ix2 (0 : Fin 1) o) = (V m c main_v5 : S1x1024.Idx → EReal) (ix2 (0 : Fin 1) o) := by
  obtain ⟨-, -, -, -, -, -, -, -, -, -, -, -, -, -, -, -, e0, e1, -⟩ := idx_facts t
  unfold iblk
  rw [View.read_apply]
  show V m c main_v5 _ = V m c main_v5 _
  congr 1
  funext a
  apply Fin.ext
  match a with
  | ⟨0, _⟩ => show win0_8.index t (0 : Fin 2) * 1 + 1 * 0 = 0; omega
  | ⟨1, _⟩ => show win0_8.index t (1 : Fin 2) * 1024 + 1 * o.val = o.val; omega

/-- Row b of the nine arrays as the region finds them, as the specification's row arguments: the new hidden entry. -/
def hArr (c : Dev nD) : S4096x1024.Idx → EReal := fun i =>
  hNew (fun k => (V m c main_arg0 : S4096x512.Idx → EReal) (ix2 (i 0 : Fin 4096) k))
    (fun k => (V m c main_arg1 : S4096x1024.Idx → EReal) (ix2 (i 0 : Fin 4096) k))
    (fun k => (V m c main_arg2 : S4096x1024.Idx → EReal) (ix2 (i 0 : Fin 4096) k))
    (fun o k => (V m c main_v0 : S4096x512.Idx → EReal) (ix2 o k))
    (fun o k => (V m c main_v1 : S4096x1024.Idx → EReal) (ix2 o k))
    (fun o => (V m c main_v2 : S1x4096.Idx → EReal) (ix2 (0 : Fin 1) o))
    (fun o => (V m c main_v3 : S1x4096.Idx → EReal) (ix2 (0 : Fin 1) o))
    (fun k => (V m c main_v4 : S1x1024.Idx → EReal) (ix2 (0 : Fin 1) k))
    (fun k => (V m c main_v5 : S1x1024.Idx → EReal) (ix2 (0 : Fin 1) k)) (i 1 : Fin 1024)

/-- The same for the new cell entry. -/
def cArr (c : Dev nD) : S4096x1024.Idx → EReal := fun i =>
  cNew (fun k => (V m c main_arg0 : S4096x512.Idx → EReal) (ix2 (i 0 : Fin 4096) k))
    (fun k => (V m c main_arg1 : S4096x1024.Idx → EReal) (ix2 (i 0 : Fin 4096) k))
    (fun k => (V m c main_arg2 : S4096x1024.Idx → EReal) (ix2 (i 0 : Fin 4096) k))
    (fun o k => (V m c main_v0 : S4096x512.Idx → EReal) (ix2 o k))
    (fun o k => (V m c main_v1 : S4096x1024.Idx → EReal) (ix2 o k))
    (fun o => (V m c main_v2 : S1x4096.Idx → EReal) (ix2 (0 : Fin 1) o))
    (fun o => (V m c main_v3 : S1x4096.Idx → EReal) (ix2 (0 : Fin 1) o)) (i 1 : Fin 1024)

/-- Block row p of a grid point, with the loaded blocks read off the arrays, is row b of the arrays. -/
theorem hNewB_rows (c : Dev nD) (t : Fin cfg0.N) (p : Fin 256) (q : Fin 1024) (b : Fin 4096)
    (hb : b.val = win0_9.index t (0 : Fin 2) * 256 + p.val) :
    hNewB (iblk m c 0 t) (iblk m c 1 t) (iblk m c 3 t) (iblk m c 4 t) (iblk m c 5 t) (iblk m c 6 t) (iblk m c 2 t)
        (iblk m c 7 t) (iblk m c 8 t) p q
      = hArr m c (ix2 b q) :=
  hNew_congr q (fun k => blk0_read m c t p k b hb) (fun k => blk1_read m c t p k b hb) (fun k => blk2_read m c t p k b hb)
    (fun o k => blk3_read m c t o k) (fun o k => blk4_read m c t o k) (fun o => blk5_read m c t o) (fun o => blk6_read m c t o)
    (fun o => blk7_read m c t o) (fun o => blk8_read m c t o)

theorem cNewB_rows (c : Dev nD) (t : Fin cfg0.N) (p : Fin 256) (q : Fin 1024) (b : Fin 4096)
    (hb : b.val = win0_9.index t (0 : Fin 2) * 256 + p.val) :
    cNewB (iblk m c 0 t) (iblk m c 1 t) (iblk m c 3 t) (iblk m c 4 t) (iblk m c 5 t) (iblk m c 6 t) (iblk m c 2 t) p q
      = cArr m c (ix2 b q) :=
  cNew_congr q (fun k => blk0_read m c t p k b hb) (fun k => blk1_read m c t p k b hb) (fun k => blk2_read m c t p k b hb)
    (fun o k => blk3_read m c t o k) (fun o k => blk4_read m c t o k) (fun o => blk5_read m c t o) (fun o => blk6_read m c t o)

theorem flushed9_eq (c : Dev nD) (t : Fin cfg0.N) :
    (dats m 0 c).flushed 9 t = ((cfg0.win 9).blk t).view.read (Elt Ideal) (hArr m c) := by
  rw [flushed9]
  unfold out0_9
  rw [View.canon_unit_zero hz]
  simp only [View.ld_unit_zero (S := S256x512) hz, View.ld_unit_zero (S := S256x1024) hz, View.ld_unit_zero (S := S4096x512) hz,
    View.ld_unit_zero (S := S4096x1024) hz, View.ld_unit_zero (S := S1x4096) hz, View.ld_unit_zero (S := S1x1024) hz]
  funext j
  obtain ⟨p, q, rfl⟩ : ∃ (p : Fin 256) (q : Fin 1024), j = ix2 p q := ⟨j 0, j 1, eq_ix2 j⟩
  obtain ⟨-, -, -, -, -, -, -, -, -, -, -, -, -, -, -, -, -, -, -, -, e1, e0⟩ := idx_facts t
  have hlt : win0_9.index t (0 : Fin 2) * 256 + p.val < 4096 := by have := p.isLt; omega
  refine (hnew_eq (iblk m c 0 t) (iblk m c 1 t) (iblk m c 3 t) (iblk m c 4 t) (iblk m c 5 t) (iblk m c 6 t) (iblk m c 2 t)
    (iblk m c 7 t) (iblk m c 8 t) p q).trans ?_
  refine (hNewB_rows m c t p q ⟨win0_9.index t (0 : Fin 2) * 256 + p.val, hlt⟩ rfl).trans ?_
  rw [View.read_apply]
  refine congrArg (hArr m c) ?_
  funext a
  apply Fin.ext
  match a with
  | ⟨0, _⟩ => show win0_9.index t (0 : Fin 2) * 256 + p.val = win0_9.index t (0 : Fin 2) * 256 + 1 * p.val; omega
  | ⟨1, _⟩ => show q.val = win0_9.index t (1 : Fin 2) * 1024 + 1 * q.val; omega

theorem flushed10_eq (c : Dev nD) (t : Fin cfg0.N) :
    (dats m 0 c).flushed 10 t = ((cfg0.win 10).blk t).view.read (Elt Ideal) (cArr m c) := by
  rw [flushed10]
  unfold out0_10
  rw [View.canon_unit_zero hz]
  simp only [View.ld_unit_zero (S := S256x512) hz, View.ld_unit_zero (S := S256x1024) hz, View.ld_unit_zero (S := S4096x512) hz,
    View.ld_unit_zero (S := S4096x1024) hz, View.ld_unit_zero (S := S1x4096) hz]
  funext j
  obtain ⟨p, q, rfl⟩ : ∃ (p : Fin 256) (q : Fin 1024), j = ix2 p q := ⟨j 0, j 1, eq_ix2 j⟩
  obtain ⟨-, -, -, -, -, -, -, -, -, -, -, -, -, -, -, -, -, -, e2, e3, e1, e0⟩ := idx_facts t
  have hlt : win0_9.index t (0 : Fin 2) * 256 + p.val < 4096 := by have := p.isLt; omega
  refine (cnew_eq (iblk m c 0 t) (iblk m c 1 t) (iblk m c 3 t) (iblk m c 4 t) (iblk m c 5 t) (iblk m c 6 t) (iblk m c 2 t) p q).trans ?_
  refine (cNewB_rows m c t p q ⟨win0_9.index t (0 : Fin 2) * 256 + p.val, hlt⟩ rfl).trans ?_
  rw [View.read_apply]
  refine congrArg (cArr m c) ?_
  funext a
  apply Fin.ext
  match a with
  | ⟨0, _⟩ => show win0_9.index t (0 : Fin 2) * 256 + p.val = win0_10.index t (0 : Fin 2) * 256 + 1 * p.val; omega
  | ⟨1, _⟩ => show q.val = win0_10.index t (1 : Fin 2) * 1024 + 1 * q.val; omega

/-- An index of the new-hidden array is in a grid point's block iff each coordinate is in the block's range. -/
theorem mem_blk9 (t : Fin cfg0.N) (i : S4096x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v6_0).slice (win0_9.rect t)).set ↔ _
  rw [View.set_slice_whole, Rect.mem_set_unit]
  exact Iff.rfl

theorem mem_blk10 (t : Fin cfg0.N) (i : S4096x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v6_1).slice (win0_10.rect t)).set ↔ _
  rw [View.set_slice_whole, Rect.mem_set_unit]
  exact Iff.rfl

/-- The sixteen blocks of 256 rows cover the 4096 rows: row r is in block r / 256. -/
theorem cover9 (i : S4096x1024.Idx) : ∃ t : Fin cfg0.N, (cfg0.win 9).flush t = true ∧ i ∈ ((cfg0.win 9).blk t).view.set := by
  have hi0 : (i 0).val < 4096 := (i 0).isLt
  have hi1 : (i 1).val < 1024 := (i 1).isLt
  obtain ⟨t, ht⟩ := idx_onto ⟨(i 0).val / 256, by omega⟩
  obtain ⟨-, -, -, -, -, -, -, -, -, -, -, -, -, -, -, -, -, -, e2, e3, e1, e0⟩ := idx_facts t
  have ht' : win0_9.index t (0 : Fin 2) = (i 0).val / 256 := ht
  refine ⟨t, flush0_9 t, ?_⟩
  rw [mem_blk9]
  intro a
  match a with
  | ⟨0, _⟩ => show win0_9.index t (0 : Fin 2) * 256 ≤ (i 0).val ∧ (i 0).val < win0_9.index t (0 : Fin 2) * 256 + 256; omega
  | ⟨1, _⟩ => show win0_9.index t (1 : Fin 2) * 1024 ≤ (i 1).val ∧ (i 1).val < win0_9.index t (1 : Fin 2) * 1024 + 1024; omega

theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  obtain ⟨t, ht⟩ := idx_onto ⟨(i 0).val / 256, by omega⟩
  obtain ⟨-, -, -, -, -, -, -, -, -, -, -, -, -, -, -, -, -, -, e2, e3, e1, e0⟩ := idx_facts t
  have ht' : win0_9.index t (0 : Fin 2) = (i 0).val / 256 := ht
  refine ⟨t, flush0_10 t, ?_⟩
  rw [mem_blk10]
  intro a
  match a with
  | ⟨0, _⟩ => show win0_10.index t (0 : Fin 2) * 256 ≤ (i 0).val ∧ (i 0).val < win0_10.index t (0 : Fin 2) * 256 + 256; omega
  | ⟨1, _⟩ => show win0_10.index t (1 : Fin 2) * 1024 ≤ (i 1).val ∧ (i 1).val < win0_10.index t (1 : Fin 2) * 1024 + 1024; omega

/-- The new-hidden array after the run. -/
theorem final9 (c : Dev nD) : (dats m 0 c).arrAt 9 cfg0.N = hArr m c :=
  (dats m 0 c).arrAt_eq_of_cover 9 (hArr m c) (fun t _ => flushed9_eq m c t) cover9

/-- The new-cell array after the run. -/
theorem final10 (c : Dev nD) : (dats m 0 c).arrAt 10 cfg0.N = cArr m c :=
  (dats m 0 c).arrAt_eq_of_cover 10 (cArr m c) (fun t _ => flushed10_eq m c t) cover10

/-! ## The arrays the region finds are the launch contents -/

theorem V_v0 (c : Dev nD) : (V m c main_v0 : S4096x512.Idx → EReal) = (m ((c : Thread nD τ).loc main_arg3) : S4096x512.Idx → EReal) := by
  have e : (V m c main_v0 : S4096x512.Idx → EReal) = truncf (F := Ideal) .bf16 (m ((c : Thread nD τ).loc main_arg3)) bitsLt_bf16_f32 := by
    dsimp only [Gen.V, Gen.hostOps0]; after_results
  rw [e]; rfl

theorem V_v1 (c : Dev nD) : (V m c main_v1 : S4096x1024.Idx → EReal) = (m ((c : Thread nD τ).loc main_arg4) : S4096x1024.Idx → EReal) := by
  have e : (V m c main_v1 : S4096x1024.Idx → EReal) = truncf (F := Ideal) .bf16 (m ((c : Thread nD τ).loc main_arg4)) bitsLt_bf16_f32 := by
    dsimp only [Gen.V, Gen.hostOps0]; after_results
  rw [e]; rfl

theorem V_v2 (c : Dev nD) (o : Fin 4096) : (V m c main_v2 : S1x4096.Idx → EReal) (ix2 (0 : Fin 1) o) = (m ((c : Thread nD τ).loc main_arg5) : S4096.Idx → EReal) (ix1 o) := by
  have e : (V m c main_v2 : S1x4096.Idx → EReal) = shapeCast S1x4096 (m ((c : Thread nD τ).loc main_arg5) : S4096.Idx → EReal) shapeCasts_S4096_S1x4096 := by
    dsimp only [Gen.V, Gen.hostOps0]; after_results; rfl
  rw [e]; exact shapeCast_a_1a_apply _ _ _ _

theorem V_v3 (c : Dev nD) (o : Fin 4096) : (V m c main_v3 : S1x4096.Idx → EReal) (ix2 (0 : Fin 1) o) = (m ((c : Thread nD τ).loc main_arg6) : S4096.Idx → EReal) (ix1 o) := by
  have e : (V m c main_v3 : S1x4096.Idx → EReal) = shapeCast S1x4096 (m ((c : Thread nD τ).loc main_arg6) : S4096.Idx → EReal) shapeCasts_S4096_S1x4096 := by
    dsimp only [Gen.V, Gen.hostOps0]; after_results; rfl
  rw [e]; exact shapeCast_a_1a_apply _ _ _ _

theorem V_v4 (c : Dev nD) (o : Fin 1024) : (V m c main_v4 : S1x1024.Idx → EReal) (ix2 (0 : Fin 1) o) = (m ((c : Thread nD τ).loc main_arg7) : S1024.Idx → EReal) (ix1 o) := by
  have e : (V m c main_v4 : S1x1024.Idx → EReal) = shapeCast S1x1024 (m ((c : Thread nD τ).loc main_arg7) : S1024.Idx → EReal) shapeCasts_S1024_S1x1024 := by
    dsimp only [Gen.V, Gen.hostOps0]; after_results; rfl
  rw [e]; exact shapeCast_a_1a_apply _ _ _ _

theorem V_v5 (c : Dev nD) (o : Fin 1024) : (V m c main_v5 : S1x1024.Idx → EReal) (ix2 (0 : Fin 1) o) = (m ((c : Thread nD τ).loc main_arg8) : S1024.Idx → EReal) (ix1 o) := by
  have e : (V m c main_v5 : S1x1024.Idx → EReal) = shapeCast S1x1024 (m ((c : Thread nD τ).loc main_arg8) : S1024.Idx → EReal) shapeCasts_S1024_S1x1024 := by
    dsimp only [Gen.V, Gen.hostOps0]; after_results; rfl
  rw [e]; exact shapeCast_a_1a_apply _ _ _ _

/-- The new-hidden array as the specification's function of the nine launch arrays. -/
theorem hArr_eq (c : Dev nD) :
    hArr m c = hOut (m ((c : Thread nD τ).loc main_arg0) : S4096x512.Idx → EReal) (m ((c : Thread nD τ).loc main_arg1) : S4096x1024.Idx → EReal)
      (m ((c : Thread nD τ).loc main_arg2) : S4096x1024.Idx → EReal) (m ((c : Thread nD τ).loc main_arg3) : S4096x512.Idx → EReal)
      (m ((c : Thread nD τ).loc main_arg4) : S4096x1024.Idx → EReal) (m ((c : Thread nD τ).loc main_arg5) : S4096.Idx → EReal)
      (m ((c : Thread nD τ).loc main_arg6) : S4096.Idx → EReal) (m ((c : Thread nD τ).loc main_arg7) : S1024.Idx → EReal)
      (m ((c : Thread nD τ).loc main_arg8) : S1024.Idx → EReal) := by
  funext i
  obtain ⟨b, q, rfl⟩ : ∃ (b : Fin 4096) (q : Fin 1024), i = ix2 b q := ⟨i 0, i 1, eq_ix2 i⟩
  rw [hOut_ix2]
  unfold hAt
  exact hNew_congr q (fun k => congrFun (V_main_arg0 m c) (ix2 b k)) (fun k => congrFun (V_main_arg1 m c) (ix2 b k))
    (fun k => congrFun (V_main_arg2 m c) (ix2 b k)) (fun o k => congrFun (V_v0 m c) (ix2 o k)) (fun o k => congrFun (V_v1 m c) (ix2 o k))
    (fun o => V_v2 m c o) (fun o => V_v3 m c o) (fun o => V_v4 m c o) (fun o => V_v5 m c o)

/-- The new-cell array likewise. -/
theorem cArr_eq (c : Dev nD) :
    cArr m c = cOut (m ((c : Thread nD τ).loc main_arg0) : S4096x512.Idx → EReal) (m ((c : Thread nD τ).loc main_arg1) : S4096x1024.Idx → EReal)
      (m ((c : Thread nD τ).loc main_arg2) : S4096x1024.Idx → EReal) (m ((c : Thread nD τ).loc main_arg3) : S4096x512.Idx → EReal)
      (m ((c : Thread nD τ).loc main_arg4) : S4096x1024.Idx → EReal) (m ((c : Thread nD τ).loc main_arg5) : S4096.Idx → EReal)
      (m ((c : Thread nD τ).loc main_arg6) : S4096.Idx → EReal) := by
  funext i
  obtain ⟨b, q, rfl⟩ : ∃ (b : Fin 4096) (q : Fin 1024), i = ix2 b q := ⟨i 0, i 1, eq_ix2 i⟩
  rw [cOut_ix2]
  unfold cAt
  exact cNew_congr q (fun k => congrFun (V_main_arg0 m c) (ix2 b k)) (fun k => congrFun (V_main_arg1 m c) (ix2 b k))
    (fun k => congrFun (V_main_arg2 m c) (ix2 b k)) (fun o k => congrFun (V_v0 m c) (ix2 o k)) (fun o k => congrFun (V_v1 m c) (ix2 o k))
    (fun o => V_v2 m c o) (fun o => V_v3 m c o)

/-! ## The run, read -/

/-- Every weakly fair execution of the kernel's program ends with the two result arrays at the specification's
    functions of the nine launch arrays, and the arguments unchanged. -/
theorem run : θ_run defs (onTc (τ := τ) (main (F := Ideal))) ⟨m, fun _ => 0, ρ⟩ fun r => ∀ c : Dev nD,
      r.2.mem ((c : Thread nD τ).loc main_v6_0)
        = hOut (m ((c : Thread nD τ).loc main_arg0) : S4096x512.Idx → EReal) (m ((c : Thread nD τ).loc main_arg1) : S4096x1024.Idx → EReal)
            (m ((c : Thread nD τ).loc main_arg2) : S4096x1024.Idx → EReal) (m ((c : Thread nD τ).loc main_arg3) : S4096x512.Idx → EReal)
            (m ((c : Thread nD τ).loc main_arg4) : S4096x1024.Idx → EReal) (m ((c : Thread nD τ).loc main_arg5) : S4096.Idx → EReal)
            (m ((c : Thread nD τ).loc main_arg6) : S4096.Idx → EReal) (m ((c : Thread nD τ).loc main_arg7) : S1024.Idx → EReal)
            (m ((c : Thread nD τ).loc main_arg8) : S1024.Idx → EReal)
      ∧ r.2.mem ((c : Thread nD τ).loc main_v6_1)
        = cOut (m ((c : Thread nD τ).loc main_arg0) : S4096x512.Idx → EReal) (m ((c : Thread nD τ).loc main_arg1) : S4096x1024.Idx → EReal)
            (m ((c : Thread nD τ).loc main_arg2) : S4096x1024.Idx → EReal) (m ((c : Thread nD τ).loc main_arg3) : S4096x512.Idx → EReal)
            (m ((c : Thread nD τ).loc main_arg4) : S4096x1024.Idx → EReal) (m ((c : Thread nD τ).loc main_arg5) : S4096.Idx → EReal)
            (m ((c : Thread nD τ).loc main_arg6) : S4096.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c =>
      ⟨(h c).1.trans ((final9 m c).trans (hArr_eq m c)), (h c).2.1.trans ((final10 m c).trans (cArr_eq m c)), (h c).2.2⟩)
    (run_blocks m ρ)

end Cert.LnLstm.KerArr

end
-- ==== Proof.RefSpec.lean ====
/-
  The reference program is the layer-normalised LSTM cell of Spec.lean, stage by stage.

  Every stage of the reference, read at an index built from its coordinates (batch row b, column o among the
  4096, or gate chunk g and entry k among the 1024), is one of Spec's functions of the rows of the argument
  arrays. The chain follows the program's order: the two dot products and their sum (the pre-activation), the
  view of the 4096 columns as four chunks of 1024, each chunk's mean, variance and normalisation, the scale
  and shift, the four chunks cut apart, the three sigmoids and the hyperbolic tangent, the new cell row, its
  own normalisation, and the new hidden row. Nothing but reading at an index happens: no algebra, no
  finiteness, no condition on the inputs.
-/
import proofs.«170549_j14980845928861_2_alg».proof.Proof.Spec
import proofs.«170549_j14980845928861_2_alg».proof.Proof.RefReadP
import Idealize.ShloMosaic.Lib.ValueIdx
import Idealize.ShloMosaic.PureOps.Ideal.Laws

noncomputable section

namespace Cert.LnLstm.Ref

open Cert.ReferenceIdeal Cert.ReferenceIdeal.ReadP Cert.LnLstm Idealize.ShloMosaic Idealize.ShloMosaic.ValueIdx

variable (x0 : Mat 4096 512) (x1 x2 : Mat 4096 1024) (x3 : Mat 4096 512) (x4 : Mat 4096 1024)
  (x5 x6 : Vc 4096) (x7 x8 : Vc 1024)

/-- The pre-activation of batch row b at column o, read off the arrays. -/
abbrev linAt (b o : Fin 4096) : EReal :=
  lin (fun k => x0 (ix2 b k)) (fun k => x1 (ix2 b k)) (fun o k => x3 (ix2 o k)) (fun o k => x4 (ix2 o k)) o

/-- Gate g of batch row b at entry k, read off the arrays. -/
abbrev gateAt (b : Fin 4096) (g : Fin 4) (k : Fin 1024) : EReal :=
  gate (fun k => x0 (ix2 b k)) (fun k => x1 (ix2 b k)) (fun o k => x3 (ix2 o k)) (fun o k => x4 (ix2 o k))
    (fun o => x5 (ix1 o)) (fun o => x6 (ix1 o)) g k

/-! ## The pre-activation -/

/-- The first dot product at (b, o): row b of x against row o of the first weight matrix (the program
    transposes the matrix first, so its row o is read as column o of the transpose). -/
theorem v1_at (b o : Fin 4096) :
    val_main_v1 (F := Ideal) x0 x3 (ix2 b o) = ∑ k : Fin 512, x0 (ix2 b k) * x3 (ix2 o k) := by
  rw [val_main_v1_apply]
  refine Finset.sum_congr rfl fun k _ => ?_
  rw [val_main_v0_apply]
  have h1 : lidx_main_v1 (ix2 b o) k = ix2 b k :=
    funext fun a => Fin.ext (by match a with | ⟨0, _⟩ => rfl | ⟨1, _⟩ => rfl)
  have h2 : idx_main_v0 (ridx_main_v1 (ix2 b o) k) = ix2 o k :=
    funext fun a => Fin.ext (by match a with | ⟨0, _⟩ => rfl | ⟨1, _⟩ => rfl)
  rw [h1, h2]

/-- The second dot product at (b, o): row b of h against row o of the second weight matrix. -/
theorem v3_at (b o : Fin 4096) :
    val_main_v3 (F := Ideal) x1 x4 (ix2 b o) = ∑ k : Fin 1024, x1 (ix2 b k) * x4 (ix2 o k) := by
  rw [val_main_v3_apply]
  refine Finset.sum_congr rfl fun k _ => ?_
  rw [val_main_v2_apply]
  have h1 : lidx_main_v3 (ix2 b o) k = ix2 b k :=
    funext fun a => Fin.ext (by match a with | ⟨0, _⟩ => rfl | ⟨1, _⟩ => rfl)
  have h2 : idx_main_v2 (ridx_main_v3 (ix2 b o) k) = ix2 o k :=
    funext fun a => Fin.ext (by match a with | ⟨0, _⟩ => rfl | ⟨1, _⟩ => rfl)
  rw [h1, h2]

/-- Their sum is the pre-activation. -/
theorem v4_at (b o : Fin 4096) :
    val_main_v4 (F := Ideal) x0 x1 x3 x4 (ix2 b o) = linAt x0 x1 x3 x4 b o := by
  rw [val_main_v4_apply, v1_at, v3_at]
  rfl

/-- The 4096 columns seen as four chunks of 1024: entry k of chunk g is column 1024 g + k. -/
theorem v5_at (b : Fin 4096) (g : Fin 4) (k : Fin 1024) :
    val_main_v5 (F := Ideal) x0 x1 x3 x4 (ix3 b g k) = linAt x0 x1 x3 x4 b (col g k) := by
  have h : idx_main_v5 (ix3 b g k) = ix2 b (col g k) :=
    funext fun a => Fin.ext (by
      have hb := b.isLt; have hg := g.isLt; have hk := k.isLt
      match a with
      | ⟨0, _⟩ => show ((b.val * 4 + g.val) * 1024 + k.val) / 4096 = b.val; omega
      | ⟨1, _⟩ => show ((b.val * 4 + g.val) * 1024 + k.val) % 4096 = 1024 * g.val + k.val; omega)
  rw [val_main_v5_apply, h, v4_at]

/-! ## Each chunk's mean and variance -/

/-- The sum of chunk g of batch row b (the program's sum starts from the float zero, which is 0). -/
theorem v6_at (b : Fin 4096) (g : Fin 4) :
    val_main_v6 (F := Ideal) x0 x1 x3 x4 (ix2 b g) = ∑ k : Fin 1024, linAt x0 x1 x3 x4 b (col g k) := by
  rw [val_main_v6_apply, val_main_cst_apply, Ideal.ofBits_def, Ideal.ofBits_zero_f32, zero_add]
  refine Finset.sum_congr rfl fun k _ => ?_
  have h : idx_main_v6 (ix2 b g) k = ix3 b g k :=
    funext fun a => Fin.ext (by match a with | ⟨0, _⟩ => rfl | ⟨1, _⟩ => rfl | ⟨2, _⟩ => rfl)
  rw [h, v5_at]

/-- The mean of chunk g of batch row b. -/
theorem v9_at (b : Fin 4096) (g : Fin 4) :
    val_main_v9 (F := Ideal) x0 x1 x3 x4 (ix3 b g (0 : Fin 1))
      = mean (fun k => linAt x0 x1 x3 x4 b (col g k)) := by
  have h : idx_main_v7 (ix3 b g (0 : Fin 1)) = ix2 b g :=
    funext fun a => Fin.ext (by match a with | ⟨0, _⟩ => rfl | ⟨1, _⟩ => rfl)
  rw [val_main_v9_apply, val_main_v7_apply, h, v6_at, val_main_v8_apply, val_main_cst_0_apply]
  rfl

/-- The mean again, spread back over the chunk's 1024 entries. -/
theorem v10_at (b : Fin 4096) (g : Fin 4) (k : Fin 1024) :
    val_main_v10 (F := Ideal) x0 x1 x3 x4 (ix3 b g k) = mean (fun k => linAt x0 x1 x3 x4 b (col g k)) := by
  have h : idx_main_v10 (ix3 b g k) = ix3 b g (0 : Fin 1) :=
    funext fun a => Fin.ext (by match a with | ⟨0, _⟩ => rfl | ⟨1, _⟩ => rfl | ⟨2, _⟩ => rfl)
  rw [val_main_v10_apply, h, v9_at]

/-- An entry's distance from its chunk's mean. -/
theorem v11_at (b : Fin 4096) (g : Fin 4) (k : Fin 1024) :
    val_main_v11 (F := Ideal) x0 x1 x3 x4 (ix3 b g k)
      = linAt x0 x1 x3 x4 b (col g k) - mean (fun k => linAt x0 x1 x3 x4 b (col g k)) := by
  rw [val_main_v11_apply, v5_at, v10_at]
  rfl

/-- The sum of the squared distances over chunk g of batch row b. -/
theorem v13_at (b : Fin 4096) (g : Fin 4) :
    val_main_v13 (F := Ideal) x0 x1 x3 x4 (ix2 b g)
      = ∑ k : Fin 1024, (linAt x0 x1 x3 x4 b (col g k) - mean (fun k => linAt x0 x1 x3 x4 b (col g k)))
          * (linAt x0 x1 x3 x4 b (col g k) - mean (fun k => linAt x0 x1 x3 x4 b (col g k))) := by
  rw [val_main_v13_apply, val_main_cst_1_apply, Ideal.ofBits_def, Ideal.ofBits_zero_f32, zero_add]
  refine Finset.sum_congr rfl fun k _ => ?_
  have h : idx_main_v13 (ix2 b g) k = ix3 b g k :=
    funext fun a => Fin.ext (by match a with | ⟨0, _⟩ => rfl | ⟨1, _⟩ => rfl | ⟨2, _⟩ => rfl)
  rw [h, val_main_v12_apply, v11_at]
  rfl

/-- The variance of chunk g of batch row b. -/
theorem v16_at (b : Fin 4096) (g : Fin 4) :
    val_main_v16 (F := Ideal) x0 x1 x3 x4 (ix3 b g (0 : Fin 1))
      = var (fun k => linAt x0 x1 x3 x4 b (col g k)) := by
  have h : idx_main_v14 (ix3 b g (0 : Fin 1)) = ix2 b g :=
    funext fun a => Fin.ext (by match a with | ⟨0, _⟩ => rfl | ⟨1, _⟩ => rfl)
  rw [val_main_v16_apply, val_main_v14_apply, h, v13_at, val_main_v15_apply, val_main_cst_2_apply]
  rfl

/-! ## Each chunk normalised -/

/-- An entry's distance from its chunk's mean, as the program computes it a second time. -/
theorem v18_at (b : Fin 4096) (g : Fin 4) (k : Fin 1024) :
    val_main_v18 (F := Ideal) x0 x1 x3 x4 (ix3 b g k)
      = linAt x0 x1 x3 x4 b (col g k) - mean (fun k => linAt x0 x1 x3 x4 b (col g k)) := by
  have h : idx_main_v17 (ix3 b g k) = ix3 b g (0 : Fin 1) :=
    funext fun a => Fin.ext (by match a with | ⟨0, _⟩ => rfl | ⟨1, _⟩ => rfl | ⟨2, _⟩ => rfl)
  rw [val_main_v18_apply, v5_at, val_main_v17_apply, h, v9_at]
  rfl

/-- The reciprocal square root of the chunk's variance plus the small constant. -/
theorem v21_at (b : Fin 4096) (g : Fin 4) :
    val_main_v21 (F := Ideal) x0 x1 x3 x4 (ix3 b g (0 : Fin 1))
      = Ideal.rsqrt (var (fun k => linAt x0 x1 x3 x4 b (col g k)) + cEps) := by
  rw [val_main_v21_apply, val_main_v20_apply, v16_at, val_main_v19_apply, val_main_cst_3_apply]
  rfl

/-- Entry k of chunk g of batch row b, normalised. -/
theorem v23_at (b : Fin 4096) (g : Fin 4) (k : Fin 1024) :
    val_main_v23 (F := Ideal) x0 x1 x3 x4 (ix3 b g k)
      = lnorm (fun k => linAt x0 x1 x3 x4 b (col g k)) k := by
  have h : idx_main_v22 (ix3 b g k) = ix3 b g (0 : Fin 1) :=
    funext fun a => Fin.ext (by match a with | ⟨0, _⟩ => rfl | ⟨1, _⟩ => rfl | ⟨2, _⟩ => rfl)
  rw [val_main_v23_apply, v18_at, val_main_v22_apply, h, v21_at]
  rfl

/-! ## Scale and shift: the four gates -/

/-- The chunks laid side by side again: column 1024 g + k of batch row b is entry k of chunk g. -/
theorem v24_at (b : Fin 4096) (g : Fin 4) (k : Fin 1024) :
    val_main_v24 (F := Ideal) x0 x1 x3 x4 (ix2 b (col g k))
      = lnorm (fun k => linAt x0 x1 x3 x4 b (col g k)) k := by
  have h : idx_main_v24 (ix2 b (col g k)) = ix3 b g k :=
    funext fun a => Fin.ext (by
      have hb := b.isLt; have hg := g.isLt; have hk := k.isLt
      match a with
      | ⟨0, _⟩ => show (b.val * 4096 + (1024 * g.val + k.val)) / 4096 = b.val; omega
      | ⟨1, _⟩ => show (b.val * 4096 + (1024 * g.val + k.val)) / 1024 % 4 = g.val; omega
      | ⟨2, _⟩ => show (b.val * 4096 + (1024 * g.val + k.val)) % 1024 = k.val; omega)
  rw [val_main_v24_apply, h, v23_at]

/-- The scale vector spread over the batch rows. -/
theorem v26_at (b o : Fin 4096) : val_main_v26 (F := Ideal) x5 (ix2 b o) = x5 (ix1 o) := by
  have h : idx_main_v25 (idx_main_v26 (ix2 b o)) = ix1 o :=
    funext fun a => Fin.ext (by match a with | ⟨0, _⟩ => rfl)
  rw [val_main_v26_apply, val_main_v25_apply, h]

/-- The shift vector spread over the batch rows. -/
theorem v29_at (b o : Fin 4096) : val_main_v29 (F := Ideal) x6 (ix2 b o) = x6 (ix1 o) := by
  have h : idx_main_v28 (idx_main_v29 (ix2 b o)) = ix1 o :=
    funext fun a => Fin.ext (by match a with | ⟨0, _⟩ => rfl)
  rw [val_main_v29_apply, val_main_v28_apply, h]

/-- Gate g of batch row b at entry k sits at column 1024 g + k. -/
theorem v30_at (b : Fin 4096) (g : Fin 4) (k : Fin 1024) :
    val_main_v30 (F := Ideal) x0 x1 x3 x4 x5 x6 (ix2 b (col g k)) = gateAt x0 x1 x3 x4 x5 x6 b g k := by
  rw [val_main_v30_apply, val_main_v27_apply, v24_at, v26_at, v29_at]
  rfl

/-- The first 1024 columns are the input gate … -/
theorem v31_at (b : Fin 4096) (k : Fin 1024) :
    val_main_v31 (F := Ideal) x0 x1 x3 x4 x5 x6 (ix2 b k) = gateAt x0 x1 x3 x4 x5 x6 b 0 k := by
  have h : idx_main_v31 (ix2 b k) = ix2 b (col 0 k) :=
    funext fun a => Fin.ext (by
      match a with
      | ⟨0, _⟩ => rfl
      | ⟨1, _⟩ => show k.val = 1024 * 0 + k.val; omega)
  rw [val_main_v31_apply, h, v30_at]

/-- … the next 1024 the forget gate … -/
theorem v32_at (b : Fin 4096) (k : Fin 1024) :
    val_main_v32 (F := Ideal) x0 x1 x3 x4 x5 x6 (ix2 b k) = gateAt x0 x1 x3 x4 x5 x6 b 1 k := by
  have h : idx_main_v32 (ix2 b k) = ix2 b (col 1 k) :=
    funext fun a => Fin.ext (by
      match a with
      | ⟨0, _⟩ => rfl
      | ⟨1, _⟩ => show 1024 + k.val = 1024 * 1 + k.val; omega)
  rw [val_main_v32_apply, h, v30_at]

/-- … the next 1024 the output gate … -/
theorem v33_at (b : Fin 4096) (k : Fin 1024) :
    val_main_v33 (F := Ideal) x0 x1 x3 x4 x5 x6 (ix2 b k) = gateAt x0 x1 x3 x4 x5 x6 b 2 k := by
  have h : idx_main_v33 (ix2 b k) = ix2 b (col 2 k) :=
    funext fun a => Fin.ext (by
      match a with
      | ⟨0, _⟩ => rfl
      | ⟨1, _⟩ => show 2048 + k.val = 1024 * 2 + k.val; omega)
  rw [val_main_v33_apply, h, v30_at]

/-- … and the last 1024 the candidate. -/
theorem v34_at (b : Fin 4096) (k : Fin 1024) :
    val_main_v34 (F := Ideal) x0 x1 x3 x4 x5 x6 (ix2 b k) = gateAt x0 x1 x3 x4 x5 x6 b 3 k := by
  have h : idx_main_v34 (ix2 b k) = ix2 b (col 3 k) :=
    funext fun a => Fin.ext (by
      match a with
      | ⟨0, _⟩ => rfl
      | ⟨1, _⟩ => show 3072 + k.val = 1024 * 3 + k.val; omega)
  rw [val_main_v34_apply, h, v30_at]

/-! ## The sigmoids, the hyperbolic tangent and the new cell row -/

/-- The sigmoid of the input gate. -/
theorem v40_at (b : Fin 4096) (k : Fin 1024) :
    val_main_v40 (F := Ideal) x0 x1 x3 x4 x5 x6 (ix2 b k) = sigm (gateAt x0 x1 x3 x4 x5 x6 b 0 k) := by
  rw [val_main_v40_apply, val_main_v39_apply, val_main_cst_5_apply, val_main_v38_apply, val_main_v37_apply,
    val_main_cst_4_apply, val_main_v36_apply, val_main_v35_apply, v31_at]
  rfl

/-- The sigmoid of the forget gate plus 1. -/
theorem v48_at (b : Fin 4096) (k : Fin 1024) :
    val_main_v48 (F := Ideal) x0 x1 x3 x4 x5 x6 (ix2 b k) = sigm (gateAt x0 x1 x3 x4 x5 x6 b 1 k + cOne) := by
  rw [val_main_v48_apply, val_main_v47_apply, val_main_cst_8_apply, val_main_v46_apply, val_main_v45_apply,
    val_main_cst_7_apply, val_main_v44_apply, val_main_v43_apply, val_main_v42_apply, v32_at,
    val_main_v41_apply, val_main_cst_6_apply]
  rfl

/-- The sigmoid of the output gate. -/
theorem v54_at (b : Fin 4096) (k : Fin 1024) :
    val_main_v54 (F := Ideal) x0 x1 x3 x4 x5 x6 (ix2 b k) = sigm (gateAt x0 x1 x3 x4 x5 x6 b 2 k) := by
  rw [val_main_v54_apply, val_main_v53_apply, val_main_cst_10_apply, val_main_v52_apply, val_main_v51_apply,
    val_main_cst_9_apply, val_main_v50_apply, val_main_v49_apply, v33_at]
  rfl

/-- The hyperbolic tangent of the candidate. -/
theorem v55_at (b : Fin 4096) (k : Fin 1024) :
    val_main_v55 (F := Ideal) x0 x1 x3 x4 x5 x6 (ix2 b k) = Ideal.tanh (gateAt x0 x1 x3 x4 x5 x6 b 3 k) := by
  rw [val_main_v55_apply, v34_at]
  rfl

/-- The new cell array at row b, entry k. -/
theorem v58_at (b : Fin 4096) (k : Fin 1024) :
    val_main_v58 (F := Ideal) x0 x1 x2 x3 x4 x5 x6 (ix2 b k) = cAt x0 x1 x2 x3 x4 x5 x6 b k := by
  rw [val_main_v58_apply, val_main_v56_apply, v48_at, val_main_v57_apply, v40_at, v55_at]
  rfl

/-- The reference's second result is the new cell array. -/
theorem ref_cOut (x0 : Mat 4096 512) (x1 x2 : Mat 4096 1024) (x3 : Mat 4096 512) (x4 : Mat 4096 1024) (x5 x6 : Vc 4096) :
    val_main_v58 (F := Ideal) x0 x1 x2 x3 x4 x5 x6 = cOut x0 x1 x2 x3 x4 x5 x6 := by
  funext i
  obtain ⟨b, k, rfl⟩ : ∃ (b : Fin 4096) (k : Fin 1024), i = ix2 b k := ⟨i 0, i 1, eq_ix2 i⟩
  rw [v58_at, cOut_ix2]

/-! ## The new cell row normalised, and the new hidden row -/

/-- The sum of the new cell row of batch row b. -/
theorem v59_at (b : Fin 4096) :
    val_main_v59 (F := Ideal) x0 x1 x2 x3 x4 x5 x6 (ix1 b) = ∑ k : Fin 1024, cAt x0 x1 x2 x3 x4 x5 x6 b k := by
  rw [val_main_v59_apply, val_main_cst_11_apply, Ideal.ofBits_def, Ideal.ofBits_zero_f32, zero_add]
  refine Finset.sum_congr rfl fun k _ => ?_
  have h : idx_main_v59 (ix1 b) k = ix2 b k :=
    funext fun a => Fin.ext (by match a with | ⟨0, _⟩ => rfl | ⟨1, _⟩ => rfl)
  rw [h, v58_at]

/-- The mean of the new cell row of batch row b. -/
theorem v62_at (b : Fin 4096) :
    val_main_v62 (F := Ideal) x0 x1 x2 x3 x4 x5 x6 (ix2 b (0 : Fin 1)) = mean (cAt x0 x1 x2 x3 x4 x5 x6 b) := by
  have h : idx_main_v60 (ix2 b (0 : Fin 1)) = ix1 b :=
    funext fun a => Fin.ext (by match a with | ⟨0, _⟩ => rfl)
  rw [val_main_v62_apply, val_main_v60_apply, h, v59_at, val_main_v61_apply, val_main_cst_12_apply]
  rfl

/-- An entry's distance from the row's mean. -/
theorem v64_at (b : Fin 4096) (k : Fin 1024) :
    val_main_v64 (F := Ideal) x0 x1 x2 x3 x4 x5 x6 (ix2 b k)
      = cAt x0 x1 x2 x3 x4 x5 x6 b k - mean (cAt x0 x1 x2 x3 x4 x5 x6 b) := by
  have h : idx_main_v63 (ix2 b k) = ix2 b (0 : Fin 1) :=
    funext fun a => Fin.ext (by match a with | ⟨0, _⟩ => rfl | ⟨1, _⟩ => rfl)
  rw [val_main_v64_apply, v58_at, val_main_v63_apply, h, v62_at]
  rfl

/-- The sum of the squared distances over the row. -/
theorem v66_at (b : Fin 4096) :
    val_main_v66 (F := Ideal) x0 x1 x2 x3 x4 x5 x6 (ix1 b)
      = ∑ k : Fin 1024, (cAt x0 x1 x2 x3 x4 x5 x6 b k - mean (cAt x0 x1 x2 x3 x4 x5 x6 b))
          * (cAt x0 x1 x2 x3 x4 x5 x6 b k - mean (cAt x0 x1 x2 x3 x4 x5 x6 b)) := by
  rw [val_main_v66_apply, val_main_cst_13_apply, Ideal.ofBits_def, Ideal.ofBits_zero_f32, zero_add]
  refine Finset.sum_congr rfl fun k _ => ?_
  have h : idx_main_v66 (ix1 b) k = ix2 b k :=
    funext fun a => Fin.ext (by match a with | ⟨0, _⟩ => rfl | ⟨1, _⟩ => rfl)
  rw [h, val_main_v65_apply, v64_at]
  rfl

/-- The variance of the new cell row of batch row b. -/
theorem v69_at (b : Fin 4096) :
    val_main_v69 (F := Ideal) x0 x1 x2 x3 x4 x5 x6 (ix2 b (0 : Fin 1)) = var (cAt x0 x1 x2 x3 x4 x5 x6 b) := by
  have h : idx_main_v67 (ix2 b (0 : Fin 1)) = ix1 b :=
    funext fun a => Fin.ext (by match a with | ⟨0, _⟩ => rfl)
  rw [val_main_v69_apply, val_main_v67_apply, h, v66_at, val_main_v68_apply, val_main_cst_14_apply]
  rfl

/-- An entry's distance from the row's mean, as the program computes it a second time. -/
theorem v71_at (b : Fin 4096) (k : Fin 1024) :
    val_main_v71 (F := Ideal) x0 x1 x2 x3 x4 x5 x6 (ix2 b k)
      = cAt x0 x1 x2 x3 x4 x5 x6 b k - mean (cAt x0 x1 x2 x3 x4 x5 x6 b) := by
  have h : idx_main_v70 (ix2 b k) = ix2 b (0 : Fin 1) :=
    funext fun a => Fin.ext (by match a with | ⟨0, _⟩ => rfl | ⟨1, _⟩ => rfl)
  rw [val_main_v71_apply, v58_at, val_main_v70_apply, h, v62_at]
  rfl

/-- The reciprocal square root of the row's variance plus the small constant. -/
theorem v74_at (b : Fin 4096) :
    val_main_v74 (F := Ideal) x0 x1 x2 x3 x4 x5 x6 (ix2 b (0 : Fin 1))
      = Ideal.rsqrt (var (cAt x0 x1 x2 x3 x4 x5 x6 b) + cEps) := by
  rw [val_main_v74_apply, val_main_v73_apply, v69_at, val_main_v72_apply, val_main_cst_15_apply]
  rfl

/-- Entry k of the new cell row of batch row b, normalised. -/
theorem v76_at (b : Fin 4096) (k : Fin 1024) :
    val_main_v76 (F := Ideal) x0 x1 x2 x3 x4 x5 x6 (ix2 b k) = lnorm (cAt x0 x1 x2 x3 x4 x5 x6 b) k := by
  have h : idx_main_v75 (ix2 b k) = ix2 b (0 : Fin 1) :=
    funext fun a => Fin.ext (by match a with | ⟨0, _⟩ => rfl | ⟨1, _⟩ => rfl)
  rw [val_main_v76_apply, v71_at, val_main_v75_apply, h, v74_at]
  rfl

/-- The second scale vector spread over the batch rows. -/
theorem v78_at (b : Fin 4096) (k : Fin 1024) : val_main_v78 (F := Ideal) x7 (ix2 b k) = x7 (ix1 k) := by
  have h : idx_main_v77 (idx_main_v78 (ix2 b k)) = ix1 k :=
    funext fun a => Fin.ext (by match a with | ⟨0, _⟩ => rfl)
  rw [val_main_v78_apply, val_main_v77_apply, h]

/-- The second shift vector spread over the batch rows. -/
theorem v81_at (b : Fin 4096) (k : Fin 1024) : val_main_v81 (F := Ideal) x8 (ix2 b k) = x8 (ix1 k) := by
  have h : idx_main_v80 (idx_main_v81 (ix2 b k)) = ix1 k :=
    funext fun a => Fin.ext (by match a with | ⟨0, _⟩ => rfl)
  rw [val_main_v81_apply, val_main_v80_apply, h]

/-- The new hidden array at row b, entry k. -/
theorem v84_at (b : Fin 4096) (k : Fin 1024) :
    val_main_v84 (F := Ideal) x0 x1 x2 x3 x4 x5 x6 x7 x8 (ix2 b k) = hAt x0 x1 x2 x3 x4 x5 x6 x7 x8 b k := by
  rw [val_main_v84_apply, v54_at, val_main_v83_apply, val_main_v82_apply, val_main_v79_apply, v76_at,
    v78_at, v81_at]
  rfl

/-- The reference's first result is the new hidden array. -/
theorem ref_hOut (x0 : Mat 4096 512) (x1 x2 : Mat 4096 1024) (x3 : Mat 4096 512) (x4 : Mat 4096 1024) (x5 x6 : Vc 4096) (x7 x8 : Vc 1024) :
    val_main_v84 (F := Ideal) x0 x1 x2 x3 x4 x5 x6 x7 x8 = hOut x0 x1 x2 x3 x4 x5 x6 x7 x8 := by
  funext i
  obtain ⟨b, k, rfl⟩ : ∃ (b : Fin 4096) (k : Fin 1024), i = ix2 b k := ⟨i 0, i 1, eq_ix2 i⟩
  rw [v84_at, hOut_ix2]

end Cert.LnLstm.Ref

end
-- ==== Proof.lean ====
/-
  A layer-normalised LSTM cell: a fused kernel over blocks of 256 batch rows against the plain array program.

  Both idealized programs compute, for every batch row, the same function of the nine argument arrays on the
  extended reals (Proof/Spec.lean): the pre-activations are the same two sums of products (a change of float
  format is the identity, a matrix product into a zero accumulator is the sum, a transposed operand only renames
  the index), the four gate chunks are the same column ranges (the kernel cuts the 4096 columns, the reference
  views them as 4 × 1024), every mean and variance is the same sum over 1024 entries divided by the same literal,
  the machine's logistic is the quotient 1 / (1 + exp (-x)) the reference spells out, and the kernel's sixteen
  row blocks cover the arrays. No algebraic law beyond these readings is needed, so the precondition is never
  opened. The word-level kernel and its idealization differ by no rewrite: that conjunct is trivial.
-/
import proofs.«170549_j14980845928861_2_alg».proof.Defs
import proofs.«170549_j14980845928861_2_alg».proof.Proof.Gen.Kernel
import proofs.«170549_j14980845928861_2_alg».proof.Proof.Gen.Kernel.Skeleton
import proofs.«170549_j14980845928861_2_alg».proof.Proof.Gen.Kernel.Launch
import proofs.«170549_j14980845928861_2_alg».proof.Proof.Gen.Kernel.Points
import proofs.«170549_j14980845928861_2_alg».proof.Proof.Gen.Kernel.Frame
import proofs.«170549_j14980845928861_2_alg».proof.Proof.Gen.KernelIdeal
import proofs.«170549_j14980845928861_2_alg».proof.Proof.Gen.KernelIdeal.Skeleton
import proofs.«170549_j14980845928861_2_alg».proof.Proof.Gen.KernelIdeal.Launch
import proofs.«170549_j14980845928861_2_alg».proof.Proof.Gen.KernelIdeal.Points
import proofs.«170549_j14980845928861_2_alg».proof.Proof.Gen.KernelIdeal.Frame
import proofs.«170549_j14980845928861_2_alg».proof.Proof.Gen.ReferenceIdeal
import proofs.«170549_j14980845928861_2_alg».proof.Proof.Gen.Pre_finite_inputs
import proofs.«170549_j14980845928861_2_alg».proof.Proof.KerArray
import proofs.«170549_j14980845928861_2_alg».proof.Proof.RefSpec
import proofs.«170549_j14980845928861_2_alg».proof.Proof.RefRunP
import proofs.«170549_j14980845928861_2_alg».proof.Proof.RefReadEqP
import Idealize.ShloMosaic.Adequacy
import Idealize.ShloMosaic.Init

noncomputable section

namespace Cert.Proof

open Idealize.ShloMosaic Idealize.SL.Sem

/-- The word-level kernel terminates without a fault and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's run with its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- The kernel's two result arrays end at the specification's new hidden and new cell arrays of the nine launch
    arrays; the reference's two results are the same functions of its own launch arrays, which agree. -/
theorem algebraic : Cert.algebraic_KernelIdeal_ReferenceIdeal := by
  intro m ρ m' ρ' _ hagree
  refine ⟨_, _, Cert.LnLstm.KerArr.run m ρ, ?_⟩
  refine (θ_run Cert.ReferenceIdeal.defs _ _).mono (fun _ h c => ?_) (Cert.ReferenceIdeal.ValueP.run (F := Ideal) m' ρ')
  obtain ⟨a0, a1, a2, a3, a4, a5, a6, a7, a8⟩ := hagree c
  refine ⟨?_, ?_, (h c).2.2⟩
  · rw [(h c).1, Cert.ReferenceIdeal.ReadP.val_main_v84_eq, a0, a1, a2, a3, a4, a5, a6, a7, a8]
    exact Cert.LnLstm.Ref.ref_hOut _ _ _ _ _ _ _ _ _
  · rw [(h c).2.1, Cert.ReferenceIdeal.ReadP.val_main_v58_eq, a0, a1, a2, a3, a4, a5, a6]
    exact Cert.LnLstm.Ref.ref_cOut _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
